-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S64 : Shape := ⟨1, ![64]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel

variable [Facts]

def fn {F : FTy → Type} [FloatOps F] (main_arg0 : FVec F S32x64x128x128 .f32) (main_arg1 : IVec S64 32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  main_v3
-- ==== Kernel.lean ====
abbrev S32x64x128x128 : Shape := ⟨4, ![32, 64, 128, 128]⟩
abbrev S64 : Shape := ⟨1, ![64]⟩
abbrev S32x64x16384 : Shape := ⟨3, ![32, 64, 16384]⟩
abbrev S2x64x64 : Shape := ⟨3, ![2, 64, 64]⟩
abbrev S2x64x16384 : Shape := ⟨3, ![2, 64, 16384]⟩
abbrev S1x64x64 : Shape := ⟨3, ![1, 64, 64]⟩
abbrev S64x64 : Shape := ⟨2, ![64, 64]⟩
abbrev S2x64 : Shape := ⟨2, ![2, 64]⟩
abbrev S2x64x1 : Shape := ⟨3, ![2, 64, 1]⟩
abbrev S2x1x64 : Shape := ⟨3, ![2, 1, 64]⟩
abbrev S_ : Shape := ⟨0, ![]⟩
abbrev S64x1 : Shape := ⟨2, ![64, 1]⟩
abbrev S1x64 : Shape := ⟨2, ![1, 64]⟩

abbrev nBuf : Space → Nat
  | .hbm => 101
  | .vmem => 4
  | .smem => 0
  | _ => 0

abbrev bufTy : (tb : Table) → Fin (tcTables nBuf tb) → BufTy
  | .hbm, ⟨0, _⟩ => ⟨S32x64x128x128, .f32⟩
  | .hbm, ⟨1, _⟩ => ⟨S64, .i32⟩
  | .hbm, ⟨2, _⟩ => ⟨S32x64x16384, .f32⟩
  | .hbm, ⟨3, _⟩ => ⟨S2x64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S1x64, .i32⟩
  | .hbm, ⟨25, _⟩ => ⟨S_, .i32⟩
  | .hbm, ⟨26, _⟩ => ⟨S64x1, .i32⟩
  | .hbm, ⟨27, _⟩ => ⟨S64x1, .i1⟩
  | .hbm, ⟨28, _⟩ => ⟨S_, .i32⟩
  | .hbm, ⟨29, _⟩ => ⟨S1x64, .i32⟩
  | .hbm, ⟨30, _⟩ => ⟨S1x64, .i1⟩
  | .hbm, ⟨31, _⟩ => ⟨S_, .i1⟩
  | .hbm, ⟨32, _⟩ => ⟨S64x1, .i1⟩
  | .hbm, ⟨33, _⟩ => ⟨S64x1, .i1⟩
  | .hbm, ⟨34, _⟩ => ⟨S64x1, .i1⟩
  | .hbm, ⟨35, _⟩ => ⟨S_, .i1⟩
  | .hbm, ⟨36, _⟩ => ⟨S1x64, .i1⟩
  | .hbm, ⟨37, _⟩ => ⟨S1x64, .i1⟩
  | .hbm, ⟨38, _⟩ => ⟨S1x64, .i1⟩
  | .hbm, ⟨39, _⟩ => ⟨S64x64, .i1⟩
  | .hbm, ⟨40, _⟩ => ⟨S64x64, .i1⟩
  | .hbm, ⟨41, _⟩ => ⟨S64x64, .i1⟩
  | .hbm, ⟨42, _⟩ => ⟨S_, .i32⟩
  | .hbm, ⟨43, _⟩ => ⟨S64x1, .i32⟩
  | .hbm, ⟨44, _⟩ => ⟨S64x1, .i1⟩
  | .hbm, ⟨45, _⟩ => ⟨S_, .i32⟩
  | .hbm, ⟨46, _⟩ => ⟨S1x64, .i32⟩
  | .hbm, ⟨47, _⟩ => ⟨S1x64, .i1⟩
  | .hbm, ⟨48, _⟩ => ⟨S_, .i1⟩
  | .hbm, ⟨49, _⟩ => ⟨S64x1, .i1⟩
  | .hbm, ⟨50, _⟩ => ⟨S64x1, .i1⟩
  | .hbm, ⟨51, _⟩ => ⟨S64x1, .i1⟩
  | .hbm, ⟨52, _⟩ => ⟨S_, .i1⟩
  | .hbm, ⟨53, _⟩ => ⟨S1x64, .i1⟩
  | .hbm, ⟨54, _⟩ => ⟨S1x64, .i1⟩
  | .hbm, ⟨55, _⟩ => ⟨S1x64, .i1⟩
  | .hbm, ⟨56, _⟩ => ⟨S64x64, .i1⟩
  | .hbm, ⟨57, _⟩ => ⟨S64x64, .i1⟩
  | .hbm, ⟨58, _⟩ => ⟨S64x64, .i1⟩
  | .hbm, ⟨59, _⟩ => ⟨S64x64, .i1⟩
  | .hbm, ⟨60, _⟩ => ⟨S64x64, .i1⟩
  | .hbm, ⟨61, _⟩ => ⟨S64x64, .i1⟩
  | .hbm, ⟨62, _⟩ => ⟨S_, .i32⟩
  | .hbm, ⟨63, _⟩ => ⟨S64x1, .i32⟩
  | .hbm, ⟨64, _⟩ => ⟨S64x1, .i1⟩
  | .hbm, ⟨65, _⟩ => ⟨S_, .i32⟩
  | .hbm, ⟨66, _⟩ => ⟨S1x64, .i32⟩
  | .hbm, ⟨67, _⟩ => ⟨S1x64, .i1⟩
  | .hbm, ⟨68, _⟩ => ⟨S_, .i1⟩
  | .hbm, ⟨69, _⟩ => ⟨S64x1, .i1⟩
  | .hbm, ⟨70, _⟩ => ⟨S64x1, .i1⟩
  | .hbm, ⟨71, _⟩ => ⟨S64x1, .i1⟩
  | .hbm, ⟨72, _⟩ => ⟨S_, .i1⟩
  | .hbm, ⟨73, _⟩ => ⟨S1x64, .i1⟩
  | .hbm, ⟨74, _⟩ => ⟨S1x64, .i1⟩
  | .hbm, ⟨75, _⟩ => ⟨S1x64, .i1⟩
  | .hbm, ⟨76, _⟩ => ⟨S64x64, .i1⟩
  | .hbm, ⟨77, _⟩ => ⟨S64x64, .i1⟩
  | .hbm, ⟨78, _⟩ => ⟨S64x64, .i1⟩
  | .hbm, ⟨79, _⟩ => ⟨S64x64, .f32⟩
  | .hbm, ⟨80, _⟩ => ⟨S_, .i1⟩
  | .hbm, ⟨81, _⟩ => ⟨S64x64, .i1⟩
  | .hbm, ⟨82, _⟩ => ⟨S64x64, .i32⟩
  | .hbm, ⟨83, _⟩ => ⟨S_, .i32⟩
  | .hbm, ⟨84, _⟩ => ⟨S64x64, .i32⟩
  | .hbm, ⟨85, _⟩ => ⟨S64x64, .i32⟩
  | .hbm, ⟨86, _⟩ => ⟨S64x64, .i32⟩
  | .hbm, ⟨87, _⟩ => ⟨S64x64, .i1⟩
  | .hbm, ⟨88, _⟩ => ⟨S_, .i1⟩
  | .hbm, ⟨89, _⟩ => ⟨S64x64, .i1⟩
  | .hbm, ⟨90, _⟩ => ⟨S64x64, .i1⟩
  | .hbm, ⟨91, _⟩ => ⟨S64x64, .i1⟩
  | .hbm, ⟨92, _⟩ => ⟨S64x64, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S2x64x16384, .f32⟩
  | .local _ .vmem, ⟨1, _⟩ => ⟨S2x64x16384, .f32⟩
  | .local _ .vmem, ⟨2, _⟩ => ⟨S1x64x64, .f32⟩
  | .local _ .vmem, ⟨3, _⟩ => ⟨S1x64x64, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_c_4 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_9 : Ref sig .tc := ⟨.hbm, 42, rfl⟩
abbrev main_v26 : Ref sig .tc := ⟨.hbm, 43, rfl⟩
abbrev main_v27 : Ref sig .tc := ⟨.hbm, 44, rfl⟩
abbrev main_c_10 : Ref sig .tc := ⟨.hbm, 45, rfl⟩
abbrev main_v28 : Ref sig .tc := ⟨.hbm, 46, rfl⟩
abbrev main_v29 : Ref sig .tc := ⟨.hbm, 47, rfl⟩
abbrev main_c_11 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_12 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_c_14 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_17 : Ref sig .tc := ⟨.hbm, 80, rfl⟩
abbrev main_v56 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_0 : Ref sig .tc := ⟨.hbm, 88, rfl⟩
abbrev main_call2_v5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_18 : Ref sig .tc := ⟨.hbm, 96, rfl⟩
abbrev main_v63 : Ref sig .tc := ⟨.hbm, 97, rfl⟩
abbrev main_cst_19 : Ref sig .tc := ⟨.hbm, 98, rfl⟩
abbrev main_v64 : Ref sig .tc := ⟨.hbm, 99, rfl⟩
abbrev main_v65 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S32x64x128x128_S32x64x16384 : S32x64x128x128.ShapeCasts S32x64x16384
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S2x64x16384_S2x64x16384_0_0_0 : ∀ a, (![0, 0, 0] : Fin 3 → Nat) a + S2x64x16384.size a ≤ S2x64x16384.size a
  h_S2x64x16384 : 0 < S2x64x16384.numel
  shapeCasts_S2x64x16384_S2x64x16384 : S2x64x16384.ShapeCasts S2x64x16384
  reduces_S2x64x16384_S2x64 : S2x64x16384.Reduces [2] S2x64
  bitsLt_bf16_f32 : FTy.bits .bf16 < FTy.bits .f32
  shapeCasts_S2x64_S2x64x1 : S2x64.ShapeCasts S2x64x1
  shapeCasts_S2x64_S2x1x64 : S2x64.ShapeCasts S2x1x64
  broadcasts_S2x64x1_S2x64x64 : S2x64x1.Broadcasts S2x64x64
  broadcasts_S2x1x64_S2x64x64 : S2x1x64.Broadcasts S2x64x64
  reduces_S2x64x64_S64x64 : S2x64x64.Reduces [0] S64x64
  reducesTo_S2x64x64_S64x64_d0 : S2x64x64.ReducesTo [0] S64x64
  h_S_ : 0 < S_.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S64x1 : S_.BroadcastsInDim S64x1 (![] : Fin 0 → Fin S64x1.rank)
  bcast_S_S1x64 : S_.BroadcastsInDim S1x64 (![] : Fin 0 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  dot_S2x64x16384_S2x64x16384_S2x64x64_2_2_1_1_0_0_wf : DotDims.WF S2x64x16384 S2x64x16384 S2x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x16384.size a ≤ S32x64x16384.size a
  hwx0_0 : ∀ i : grid0.Coords, EltTy.bits .f32 = 32 ∨ (Rect.block (s := S32x64x16384) S2x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S2x64x64.size a
  hwx0_1 : ∀ i : grid0.Coords, EltTy.bits .f32 = 32 ∨ (Rect.block (s := S2x64x64) S1x64x64.size (cc0_transform_1 i) (hinb0_1 i)).WholeWords (EltTy.packing .f32)

variable [Facts₀]

def dot_S2x64x16384_S2x64x16384_S2x64x64_2_2_1_1_0_0 : DotDims S2x64x16384 S2x64x16384 S2x64x64 where
  lhsContracting := [2]
  rhsContracting := [2]
  lhsNonContracting := [1]
  rhsNonContracting := [1]
  lhsBatch := [0]
  rhsBatch := [0]
  wf := dot_S2x64x16384_S2x64x16384_S2x64x64_2_2_1_1_0_0_wf

abbrev win0_0 : Pipeline.Window sig grid0 :=
  Pipeline.Window.ofSpec (Memref.whole main_v0) S2x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x128x128 : Shape := ⟨4, ![32, 64, 128, 128]⟩
abbrev S64 : Shape := ⟨1, ![64]⟩
abbrev S_ : Shape := ⟨0, ![]⟩
abbrev S32x64x16384 : Shape := ⟨3, ![32, 64, 16384]⟩
abbrev S32x64x64 : Shape := ⟨3, ![32, 64, 64]⟩
abbrev S32x64 : Shape := ⟨2, ![32, 64]⟩
abbrev S32x64x1 : Shape := ⟨3, ![32, 64, 1]⟩
abbrev S32x1x64 : Shape := ⟨3, ![32, 1, 64]⟩
abbrev S64x64 : Shape := ⟨2, ![64, 64]⟩
abbrev S64x1 : Shape := ⟨2, ![64, 1]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S64, .i32⟩
  | .hbm, ⟨2, _⟩ => ⟨S_, .f32⟩
  | .hbm, ⟨3, _⟩ => ⟨S32x64x128x128, .f32⟩
  | .hbm, ⟨4, _⟩ => ⟨S32x64x128x128, .f32⟩
  | .hbm, ⟨5, _⟩ => ⟨S_, .f32⟩
  | .hbm, ⟨6, _⟩ => ⟨S32x64x128x128, .f32⟩
  | .hbm, ⟨7, _⟩ => ⟨S32x64x128x128, .f32⟩
  | .hbm, ⟨8, _⟩ => ⟨S_, .f32⟩
  | .hbm, ⟨9, _⟩ => ⟨S_, .f32⟩
  | .hbm, ⟨10, _⟩ => ⟨S32x64x128x128, .f32⟩
  | .hbm, ⟨11, _⟩ => ⟨S32x64x128x128, .f32⟩
  | .hbm, ⟨12, _⟩ => ⟨S32x64x16384, .f32⟩
  | .hbm, ⟨13, _⟩ => ⟨S32x64x64, .f32⟩
  | .hbm, ⟨14, _⟩ => ⟨S_, .f32⟩
  | .hbm, ⟨15, _⟩ => ⟨S32x64, .f32⟩
  | .hbm, ⟨16, _⟩ => ⟨S32x64x1, .f32⟩
  | .hbm, ⟨17, _⟩ => ⟨S32x1x64, .f32⟩
  | .hbm, ⟨18, _⟩ => ⟨S32x64x64, .f32⟩
  | .hbm, ⟨19, _⟩ => ⟨S32x64x64, .f32⟩
  | .hbm, ⟨20, _⟩ => ⟨S32x64x64, .f32⟩
  | .hbm, ⟨21, _⟩ => ⟨S32x64x64, .f32⟩
  | .hbm, ⟨22, _⟩ => ⟨S_, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S_, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S1x64, .i32⟩
  | .hbm, ⟨43, _⟩ => ⟨S_, .i32⟩
  | .hbm, ⟨44, _⟩ => ⟨S64x1, .i32⟩
  | .hbm, ⟨45, _⟩ => ⟨S64x1, .i1⟩
  | .hbm, ⟨46, _⟩ => ⟨S_, .i32⟩
  | .hbm, ⟨47, _⟩ => ⟨S1x64, .i32⟩
  | .hbm, ⟨48, _⟩ => ⟨S1x64, .i1⟩
  | .hbm, ⟨49, _⟩ => ⟨S_, .i1⟩
  | .hbm, ⟨50, _⟩ => ⟨S64x1, .i1⟩
  | .hbm, ⟨51, _⟩ => ⟨S64x1, .i1⟩
  | .hbm, ⟨52, _⟩ => ⟨S64x1, .i1⟩
  | .hbm, ⟨53, _⟩ => ⟨S_, .i1⟩
  | .hbm, ⟨54, _⟩ => ⟨S1x64, .i1⟩
  | .hbm, ⟨55, _⟩ => ⟨S1x64, .i1⟩
  | .hbm, ⟨56, _⟩ => ⟨S1x64, .i1⟩
  | .hbm, ⟨57, _⟩ => ⟨S64x64, .i1⟩
  | .hbm, ⟨58, _⟩ => ⟨S64x64, .i1⟩
  | .hbm, ⟨59, _⟩ => ⟨S64x64, .i1⟩
  | .hbm, ⟨60, _⟩ => ⟨S_, .i32⟩
  | .hbm, ⟨61, _⟩ => ⟨S64x1, .i32⟩
  | .hbm, ⟨62, _⟩ => ⟨S64x1, .i1⟩
  | .hbm, ⟨63, _⟩ => ⟨S_, .i32⟩
  | .hbm, ⟨64, _⟩ => ⟨S1x64, .i32⟩
  | .hbm, ⟨65, _⟩ => ⟨S1x64, .i1⟩
  | .hbm, ⟨66, _⟩ => ⟨S_, .i1⟩
  | .hbm, ⟨67, _⟩ => ⟨S64x1, .i1⟩
  | .hbm, ⟨68, _⟩ => ⟨S64x1, .i1⟩
  | .hbm, ⟨69, _⟩ => ⟨S64x1, .i1⟩
  | .hbm, ⟨70, _⟩ => ⟨S_, .i1⟩
  | .hbm, ⟨71, _⟩ => ⟨S1x64, .i1⟩
  | .hbm, ⟨72, _⟩ => ⟨S1x64, .i1⟩
  | .hbm, ⟨73, _⟩ => ⟨S1x64, .i1⟩
  | .hbm, ⟨74, _⟩ => ⟨S64x64, .i1⟩
  | .hbm, ⟨75, _⟩ => ⟨S64x64, .i1⟩
  | .hbm, ⟨76, _⟩ => ⟨S64x64, .i1⟩
  | .hbm, ⟨77, _⟩ => ⟨S64x64, .i1⟩
  | .hbm, ⟨78, _⟩ => ⟨S64x64, .i1⟩
  | .hbm, ⟨79, _⟩ => ⟨S64x64, .i1⟩
  | .hbm, ⟨80, _⟩ => ⟨S_, .i32⟩
  | .hbm, ⟨81, _⟩ => ⟨S64x1, .i32⟩
  | .hbm, ⟨82, _⟩ => ⟨S64x1, .i1⟩
  | .hbm, ⟨83, _⟩ => ⟨S_, .i32⟩
  | .hbm, ⟨84, _⟩ => ⟨S1x64, .i32⟩
  | .hbm, ⟨85, _⟩ => ⟨S1x64, .i1⟩
  | .hbm, ⟨86, _⟩ => ⟨S_, .i1⟩
  | .hbm, ⟨87, _⟩ => ⟨S64x1, .i1⟩
  | .hbm, ⟨88, _⟩ => ⟨S64x1, .i1⟩
  | .hbm, ⟨89, _⟩ => ⟨S64x1, .i1⟩
  | .hbm, ⟨90, _⟩ => ⟨S_, .i1⟩
  | .hbm, ⟨91, _⟩ => ⟨S1x64, .i1⟩
  | .hbm, ⟨92, _⟩ => ⟨S1x64, .i1⟩
  | .hbm, ⟨93, _⟩ => ⟨S1x64, .i1⟩
  | .hbm, ⟨94, _⟩ => ⟨S64x64, .i1⟩
  | .hbm, ⟨95, _⟩ => ⟨S64x64, .i1⟩
  | .hbm, ⟨96, _⟩ => ⟨S64x64, .i1⟩
  | .hbm, ⟨97, _⟩ => ⟨S64x64, .f32⟩
  | .hbm, ⟨98, _⟩ => ⟨S_, .i1⟩
  | .hbm, ⟨99, _⟩ => ⟨S64x64, .i1⟩
  | .hbm, ⟨100, _⟩ => ⟨S64x64, .i32⟩
  | .hbm, ⟨101, _⟩ => ⟨S_, .i32⟩
  | .hbm, ⟨102, _⟩ => ⟨S64x64, .i32⟩
  | .hbm, ⟨103, _⟩ => ⟨S64x64, .i32⟩
  | .hbm, ⟨104, _⟩ => ⟨S64x64, .i32⟩
  | .hbm, ⟨105, _⟩ => ⟨S64x64, .i1⟩
  | .hbm, ⟨106, _⟩ => ⟨S_, .i1⟩
  | .hbm, ⟨107, _⟩ => ⟨S64x64, .i1⟩
  | .hbm, ⟨108, _⟩ => ⟨S64x64, .i1⟩
  | .hbm, ⟨109, _⟩ => ⟨S64x64, .i1⟩
  | .hbm, ⟨110, _⟩ => ⟨S64x64, .f32⟩
  | .hbm, ⟨111, _⟩ => ⟨S64x64, .f32⟩
  | .hbm, ⟨112, _⟩ => ⟨S64x64, .f32⟩
  | .hbm, ⟨113, _⟩ => ⟨S64x64, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_c_7 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_c_8 : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_9 : Ref sig .tc := ⟨.hbm, 43, rfl⟩
abbrev main_v25 : Ref sig .tc := ⟨.hbm, 44, rfl⟩
abbrev main_v26 : Ref sig .tc := ⟨.hbm, 45, rfl⟩
abbrev main_c_10 : Ref sig .tc := ⟨.hbm, 46, rfl⟩
abbrev main_v27 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_12 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_13 : Ref sig .tc := ⟨.hbm, 60, rfl⟩
abbrev main_v38 : Ref sig .tc := ⟨.hbm, 61, rfl⟩
abbrev main_v39 : Ref sig .tc := ⟨.hbm, 62, rfl⟩
abbrev main_c_14 : Ref sig .tc := ⟨.hbm, 63, rfl⟩
abbrev main_v40 : Ref sig .tc := ⟨.hbm, 64, rfl⟩
abbrev main_v41 : Ref sig .tc := ⟨.hbm, 65, rfl⟩
abbrev main_c_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_16 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_17 : Ref sig .tc := ⟨.hbm, 80, rfl⟩
abbrev main_v54 : Ref sig .tc := ⟨.hbm, 81, rfl⟩
abbrev main_v55 : Ref sig .tc := ⟨.hbm, 82, rfl⟩
abbrev main_c_18 : Ref sig .tc := ⟨.hbm, 83, rfl⟩
abbrev main_v56 : Ref sig .tc := ⟨.hbm, 84, rfl⟩
abbrev main_v57 : Ref sig .tc := ⟨.hbm, 85, rfl⟩
abbrev main_c_19 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_20 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_21 : Ref sig .tc := ⟨.hbm, 98, rfl⟩
abbrev main_v68 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_0 : Ref sig .tc := ⟨.hbm, 106, rfl⟩
abbrev main_call3_v5 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_22 : Ref sig .tc := ⟨.hbm, 114, rfl⟩
abbrev main_v75 : Ref sig .tc := ⟨.hbm, 115, rfl⟩
abbrev main_cst_23 : Ref sig .tc := ⟨.hbm, 116, rfl⟩
abbrev main_v76 : Ref sig .tc := ⟨.hbm, 117, rfl⟩
abbrev main_v77 : Ref sig .tc := ⟨.hbm, 118, rfl⟩

abbrev nD : Nat := 1
abbrev τ : Topo := Topo.v7x

variable {F : FTy → Type} [FloatOps F]

class Facts₀ : Prop where
  bcast_S_S32x64x128x128 : S_.BroadcastsInDim S32x64x128x128 (![] : Fin 0 → Fin S32x64x128x128.rank)
  shapeCasts_S32x64x128x128_S32x64x16384 : S32x64x128x128.ShapeCasts S32x64x16384
  reducesTo_S32x64x16384_S32x64_d2 : S32x64x16384.ReducesTo [2] S32x64
  h_S_ : 0 < S_.numel
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  reducesTo_S32x64x64_S64x64_d0 : S32x64x64.ReducesTo [0] S64x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S64x1 : S_.BroadcastsInDim S64x1 (![] : Fin 0 → Fin S64x1.rank)
  bcast_S_S1x64 : S_.BroadcastsInDim S1x64 (![] : Fin 0 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  dot_S32x64x16384_S32x64x16384_S32x64x64_2_2_1_1_0_0_wf : DotDims.WF S32x64x16384 S32x64x16384 S32x64x64 [2] [2] [1] [1] [0] [0]

variable [Facts₀]

def dot_S32x64x16384_S32x64x16384_S32x64x64_2_2_1_1_0_0 : DotDims S32x64x16384 S32x64x16384 S32x64x64 where
  lhsContracting := [2]
  rhsContracting := [2]
  lhsNonContracting := [1]
  rhsNonContracting := [1]
  lhsBatch := [0]
  rhsBatch := [0]
  wf := dot_S32x64x16384_S32x64x16384_S32x64x64_2_2_1_1_0_0_wf

class Facts : Prop extends Facts₀ where

variable [Facts]
-- ==== Proof.KbShared.lean ====
/-
  What the two control cases of the accumulating kernel share, and the program around its one region.

  @main is: one reshape of the masks (the region's input array), the region on a 2 × 8 grid, then the
  lines that sum the two per-core partial sums, divide by the batch size and weigh the result by node type.
  Here: the buffer contents when the region is entered (the reshape applied), @main as "lines, region,
  lines", the facts about the later lines the launch needs (they touch only unscoped TensorCore buffers,
  allocate nothing, and write neither array of the region nor an argument), each window's block at a
  grid point, the frame claim read off a run, and the body's one branch condition in closed form: the
  accumulator is reset exactly at the points whose second coordinate is zero, i.e. t ≡ 0 (mod 8).
-/
import proofs.«115725_j78881369358863_2_alg».proof.Proof.Gen.Kernel.Launch
import proofs.«115725_j78881369358863_2_alg».proof.Proof.Gen.Kernel.Skeleton
import proofs.«115725_j78881369358863_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev tail : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the reshape, the region, the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every stretch of the later lines, with its two list facts. -/
theorem tail_cases (P : HloOp τ sig (Elt F) → Prop)
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tail : List (List (HloOp τ sig (Elt F)))), ∀ op ∈ ops, P op := by
  intro ops hops op hop
  simp only [List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-- The later lines touch unscoped TensorCore buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_cases (fun op => op.bufs ⊆ StableHlo.tcRefs τ sig)
    hostOps1_sub hostOps1_1_sub hostOps1_2_sub hostOps1_3_sub hostOps1_4_sub hostOps1_5_sub hostOps1_6_sub ops hops op hop)

/-- They allocate nothing. -/
theorem sfx_fresh : ∀ ops ∈ (tail : List (List (HloOp τ sig (Elt F)))), ∀ op ∈ ops, op.fresh = ∅ :=
  tail_cases (fun op => op.fresh = ∅)
    hostOps1_fresh hostOps1_1_fresh hostOps1_2_fresh hostOps1_3_fresh hostOps1_4_fresh hostOps1_5_fresh hostOps1_6_fresh

/-- No line after the region writes the buffer `b`, for each of the four buffers that matter: the two arrays of
    the region and the two arguments (each line writes only its own result buffer). -/
theorem tail_keeps_v0 : ∀ op ∈ (tail : List (List (HloOp τ sig (Elt F)))).flatten, Proc.devRef .tc main_v0 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_v1 : ∀ op ∈ (tail : List (List (HloOp τ sig (Elt F)))).flatten, Proc.devRef .tc main_v1 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg0 : ∀ op ∈ (tail : List (List (HloOp τ sig (Elt F)))).flatten, Proc.devRef .tc main_arg0 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg1 : ∀ op ∈ (tail : List (List (HloOp τ sig (Elt F)))).flatten, Proc.devRef .tc main_arg1 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- So they write no array of the region. -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail : List (List (HloOp τ sig (Elt F)))).flatten := List.mem_flatten.mpr ⟨ops, hops, hop⟩
  fin_cases w
  · exact tail_keeps_v0 op hmem
  · exact tail_keeps_v1 op hmem

/-- The reshape before the region writes neither argument: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- Neither do the lines after it, and neither argument is an array of the region: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) tail c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ tail_keeps_arg1,
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run whose final state has every buffer no window stages at the later lines' result gives the frame claim: both
    arguments are such buffers, and no line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch condition -/

/-- The condition of the body's one conditional, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8): the first point of each core's eight. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of the output window, through which its contents are stated. -/
abbrev VO0_1 : View sig .tc .vmem S1x64x64 .f32 := (Memref.whole cc0_stg1_0 : Memref sig .tc .vmem S1x64x64 .f32).view
/-- Each window's current staging memref at point `t`, as the pipeline passes it, and its wholeness. -/
abbrev ms0_0 (t : Fin cfg0.N) : Memref sig .tc .vmem S2x64x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x64 .f32 := win0_1.stage (cfg0.slots t 1)
abbrev hs0_1 (t : Fin cfg0.N) : (ms0_1 t).IsWhole := hstage0_1 ((cfg0.slots t 1).cast nbuf0_1)

end Cert.Kernel.Frm

end
-- ==== Proof.KbRunA.lean ====
/-
  The body at a point where the accumulator is reset (second grid coordinate zero).

  On whole staging memrefs, the input's at its block `x0` and the output's at anything, the body runs: it stores
  the zero block over the whole output buffer, reads the input block and the (now zero) accumulator back, and
  stores accumulator + this block's sum of ratios over the whole buffer again. What the output buffer ends with
  is recorded as the list of pieces written, last first; the input's buffer is handed back as it was.
-/
import proofs.«115725_j78881369358863_2_alg».proof.Proof.KbShared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the reset case leaves in the output's staging memref, with the proof that the body runs to any
    continuation that holds the input's buffer unchanged and the output's with those pieces written. -/
noncomputable def kernelRun0_A (c : Dev nD) (i : grid0.Coords) (arg2 : Memref sig .tc .vmem S2x64x16384 .f32) (harg2 : arg2.IsWhole) (arg3 : Memref sig .tc .vmem S1x64x64 .f32) (harg3 : arg3.IsWhole) (hc0 : cond0_0 i)
    (x0 : Vec F S2x64x16384 .f32) :
    { L1 : List (View.Piece (Elt F) S1x64x64 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__gram_kernel i arg2 harg2 arg3 harg3) K } := by
  refine ⟨?_, fun E K => ?run⟩
  case run =>
    simp only [cc0__gram_kernel_eq_skeleton]; unfold cc0__gram_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Frm

end
-- ==== Proof.KbRunB.lean ====
/-
  The body at a point where the accumulator is carried (second grid coordinate not zero).

  On whole staging memrefs, the input's at its block `x0` and the output's at the running sum `xo1` the point
  before left, the body runs: it reads both and stores running sum + this block's sum of ratios over the whole
  output buffer. What the output buffer ends with is recorded as the list of pieces written; the input's buffer
  is handed back as it was.
-/
import proofs.«115725_j78881369358863_2_alg».proof.Proof.KbRunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the carrying case leaves in the output's staging memref, with the proof that the body runs to any
    continuation that holds the input's buffer unchanged and the output's with those pieces written. -/
noncomputable def kernelRun0_B (c : Dev nD) (i : grid0.Coords) (arg2 : Memref sig .tc .vmem S2x64x16384 .f32) (harg2 : arg2.IsWhole) (arg3 : Memref sig .tc .vmem S1x64x64 .f32) (harg3 : arg3.IsWhole) (hc0 : ¬cond0_0 i)
    (x0 : Vec F S2x64x16384 .f32) (xo1 : Vec F S1x64x64 .f32) :
    { L1 : List (View.Piece (Elt F) S1x64x64 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__gram_kernel i arg2 harg2 arg3 harg3) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Frm

end
-- ==== Proof.KbFrame.lean ====
/-
  The frame of the accumulating kernel's program: it runs to the end, faults nowhere, and leaves both
  arguments as launched.

  The grid is 2 × 8, walked as 16 points; the output window's block depends on the first coordinate only, so
  each core's eight points share one staging buffer, written back after the eighth (points ≡ 7 mod 8). At the
  points ≡ 0 (mod 8) the body resets the buffer and adds the first block's sum; at every other point it adds
  to what the point before left, which is still there because nothing was written back in between. `outsAt0`
  states what the buffer holds after each point by recursion on the point; the proof data names it, the body
  obligation is the two cases' runs, and the launch theorem for "lines, region, lines" gives the run.
-/
import proofs.«115725_j78881369358863_2_alg».proof.Proof.KbRunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's stores tile the output block, so they cover it. -/
theorem cover0_A_1 (c : Dev nD) (i : grid0.Coords) (arg2 : Memref sig .tc .vmem S2x64x16384 .f32) (harg2 : arg2.IsWhole) (arg3 : Memref sig .tc .vmem S1x64x64 .f32) (harg3 : arg3.IsWhole) (hc0 : cond0_0 i)
    (x0 : Vec F S2x64x16384 .f32) (y : S1x64x64.Idx) :
    ∃ pc ∈ (kernelRun0_A c i arg2 harg2 arg3 harg3 hc0 x0).1, y ∈ pc.1.set :=
  View.cover_of_tiledL (kernelRun0_A c i arg2 harg2 arg3 harg3 hc0 x0).1 S1x64x64.size (by sl_kernel_rfl) y

/-- What the reset case leaves in the output's staging buffer: its pieces read back. -/
def out0_A_1 (c : Dev nD) (i : grid0.Coords) (arg2 : Memref sig .tc .vmem S2x64x16384 .f32) (harg2 : arg2.IsWhole) (arg3 : Memref sig .tc .vmem S1x64x64 .f32) (harg3 : arg3.IsWhole) (hc0 : cond0_0 i)
    (x0 : Vec F S2x64x16384 .f32) : Vec F S1x64x64 .f32 :=
  VO0_1.read (Elt F) (VO0_1.writes (Elt F) VO0_1.junk (kernelRun0_A c i arg2 harg2 arg3 harg3 hc0 x0).1)

/-- The carrying case's one store covers the output block. -/
theorem cover0_B_1 (c : Dev nD) (i : grid0.Coords) (arg2 : Memref sig .tc .vmem S2x64x16384 .f32) (harg2 : arg2.IsWhole) (arg3 : Memref sig .tc .vmem S1x64x64 .f32) (harg3 : arg3.IsWhole) (hc0 : ¬cond0_0 i)
    (x0 : Vec F S2x64x16384 .f32) (xo1 : Vec F S1x64x64 .f32) (y : S1x64x64.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x64x64.size (by sl_kernel_rfl) y

/-- What the carrying case leaves in the output's staging buffer: its pieces read back. -/
def out0_B_1 (c : Dev nD) (i : grid0.Coords) (arg2 : Memref sig .tc .vmem S2x64x16384 .f32) (harg2 : arg2.IsWhole) (arg3 : Memref sig .tc .vmem S1x64x64 .f32) (harg3 : arg3.IsWhole) (hc0 : ¬cond0_0 i)
    (x0 : Vec F S2x64x16384 .f32) (xo1 : Vec F S1x64x64 .f32) : Vec F S1x64x64 .f32 :=
  VO0_1.read (Elt F) (VO0_1.writes (Elt F) VO0_1.junk (kernelRun0_B c i arg2 harg2 arg3 harg3 hc0 x0 xo1).1)

/-! ## What the output buffer holds after each point -/

/-- The running sum: after position `n` the output's staging buffer holds the reset case's result at the
    points ≡ 0 (mod 8), and elsewhere the carrying case's result over what position `n - 1` left. -/
def outsAt0 (c : Dev nD) : (n : ℕ) → n < cfg0.N → Vec F S1x64x64 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

/-- `outsAt0` at a reset point. -/
theorem outsAt0_A (c : Dev nD) (t : Fin cfg0.N) (h0 : t.val % 8 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

/-- `outsAt0` at a carrying point: over what the point before left. -/
theorem outsAt0_B (c : Dev nD) (t : Fin cfg0.N) (h0 : ¬t.val % 8 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` the input's
    buffer at its block and the output's at the running sum; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- At a carrying point the output's current staging buffer holds what the body left at the point before: the
    point is not the first, and the buffer was not written back in between (that happens only after points ≡ 7). -/
theorem before0_1_B (c : Dev nD) (t : Fin cfg0.N) (h0 : ¬t.val % 8 = 0) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the input's memref holds its block; the closed form says which case the point is in; in
    the carrying case the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 16 := lt_of_lt_of_eq t.isLt (show cfg0.N = 16 from N_0)
  by_cases h0 : t.val % 8 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what
    the proof data gives and every other unscoped buffer as the lines after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frm

end
-- ==== Proof.KiShared.lean ====
/-
  What the two control cases of the accumulating kernel share, and the program around its one region.

  @main is: one reshape of the masks (the region's input array), the region on a 2 × 8 grid, then the
  lines that sum the two per-core partial sums, divide by the batch size and weigh the result by node type.
  Here: the buffer contents when the region is entered (the reshape applied), @main as "lines, region,
  lines", the facts about the later lines the launch needs (they touch only unscoped TensorCore buffers,
  allocate nothing, and write neither array of the region nor an argument), each window's block at a
  grid point, the frame claim read off a run, and the body's one branch condition in closed form: the
  accumulator is reset exactly at the points whose second coordinate is zero, i.e. t ≡ 0 (mod 8).
-/
import proofs.«115725_j78881369358863_2_alg».proof.Proof.Gen.KernelIdeal.Launch
import proofs.«115725_j78881369358863_2_alg».proof.Proof.Gen.KernelIdeal.Skeleton
import proofs.«115725_j78881369358863_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev tail : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the reshape, the region, the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every stretch of the later lines, with its two list facts. -/
theorem tail_cases (P : HloOp τ sig (Elt F) → Prop)
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) :
    ∀ ops ∈ (tail : List (List (HloOp τ sig (Elt F)))), ∀ op ∈ ops, P op := by
  intro ops hops op hop
  simp only [List.mem_cons, List.mem_nil_iff, or_false] at hops
  rcases hops with rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop

/-- The later lines touch unscoped TensorCore buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_cases (fun op => op.bufs ⊆ StableHlo.tcRefs τ sig)
    hostOps1_sub hostOps1_1_sub hostOps1_2_sub hostOps1_3_sub hostOps1_4_sub hostOps1_5_sub hostOps1_6_sub ops hops op hop)

/-- They allocate nothing. -/
theorem sfx_fresh : ∀ ops ∈ (tail : List (List (HloOp τ sig (Elt F)))), ∀ op ∈ ops, op.fresh = ∅ :=
  tail_cases (fun op => op.fresh = ∅)
    hostOps1_fresh hostOps1_1_fresh hostOps1_2_fresh hostOps1_3_fresh hostOps1_4_fresh hostOps1_5_fresh hostOps1_6_fresh

/-- No line after the region writes the buffer `b`, for each of the four buffers that matter: the two arrays of
    the region and the two arguments (each line writes only its own result buffer). -/
theorem tail_keeps_v0 : ∀ op ∈ (tail : List (List (HloOp τ sig (Elt F)))).flatten, Proc.devRef .tc main_v0 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_v1 : ∀ op ∈ (tail : List (List (HloOp τ sig (Elt F)))).flatten, Proc.devRef .tc main_v1 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg0 : ∀ op ∈ (tail : List (List (HloOp τ sig (Elt F)))).flatten, Proc.devRef .tc main_arg0 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg1 : ∀ op ∈ (tail : List (List (HloOp τ sig (Elt F)))).flatten, Proc.devRef .tc main_arg1 ∉ op.writes :=
  List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- So they write no array of the region. -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail : List (List (HloOp τ sig (Elt F)))).flatten := List.mem_flatten.mpr ⟨ops, hops, hop⟩
  fin_cases w
  · exact tail_keeps_v0 op hmem
  · exact tail_keeps_v1 op hmem

/-- The reshape before the region writes neither argument: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- Neither do the lines after it, and neither argument is an array of the region: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) tail c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ tail_keeps_arg1,
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run whose final state has every buffer no window stages at the later lines' result gives the frame claim: both
    arguments are such buffers, and no line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch condition -/

/-- The condition of the body's one conditional, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8): the first point of each core's eight. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of the output window, through which its contents are stated. -/
abbrev VO0_1 : View sig .tc .vmem S1x64x64 .f32 := (Memref.whole cc0_stg1_0 : Memref sig .tc .vmem S1x64x64 .f32).view
/-- Each window's current staging memref at point `t`, as the pipeline passes it, and its wholeness. -/
abbrev ms0_0 (t : Fin cfg0.N) : Memref sig .tc .vmem S2x64x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x64 .f32 := win0_1.stage (cfg0.slots t 1)
abbrev hs0_1 (t : Fin cfg0.N) : (ms0_1 t).IsWhole := hstage0_1 ((cfg0.slots t 1).cast nbuf0_1)

end Cert.KernelIdeal.Frm

end
-- ==== Proof.KiRunA.lean ====
/-
  The body at a point where the accumulator is reset (second grid coordinate zero).

  On whole staging memrefs, the input's at its block `x0` and the output's at anything, the body runs: it stores
  the zero block over the whole output buffer, reads the input block and the (now zero) accumulator back, and
  stores accumulator + this block's sum of ratios over the whole buffer again. What the output buffer ends with
  is recorded as the list of pieces written, last first; the input's buffer is handed back as it was.
-/
import proofs.«115725_j78881369358863_2_alg».proof.Proof.KiShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the reset case leaves in the output's staging memref, with the proof that the body runs to any
    continuation that holds the input's buffer unchanged and the output's with those pieces written. -/
noncomputable def kernelRun0_A (c : Dev nD) (i : grid0.Coords) (arg2 : Memref sig .tc .vmem S2x64x16384 .f32) (harg2 : arg2.IsWhole) (arg3 : Memref sig .tc .vmem S1x64x64 .f32) (harg3 : arg3.IsWhole) (hc0 : cond0_0 i)
    (x0 : Vec F S2x64x16384 .f32) :
    { L1 : List (View.Piece (Elt F) S1x64x64 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__gram_kernel i arg2 harg2 arg3 harg3) K } := by
  refine ⟨?_, fun E K => ?run⟩
  case run =>
    simp only [cc0__gram_kernel_eq_skeleton]; unfold cc0__gram_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Frm

end
-- ==== Proof.KiRunB.lean ====
/-
  The body at a point where the accumulator is carried (second grid coordinate not zero).

  On whole staging memrefs, the input's at its block `x0` and the output's at the running sum `xo1` the point
  before left, the body runs: it reads both and stores running sum + this block's sum of ratios over the whole
  output buffer. What the output buffer ends with is recorded as the list of pieces written; the input's buffer
  is handed back as it was.
-/
import proofs.«115725_j78881369358863_2_alg».proof.Proof.KiRunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the carrying case leaves in the output's staging memref, with the proof that the body runs to any
    continuation that holds the input's buffer unchanged and the output's with those pieces written. -/
noncomputable def kernelRun0_B (c : Dev nD) (i : grid0.Coords) (arg2 : Memref sig .tc .vmem S2x64x16384 .f32) (harg2 : arg2.IsWhole) (arg3 : Memref sig .tc .vmem S1x64x64 .f32) (harg3 : arg3.IsWhole) (hc0 : ¬cond0_0 i)
    (x0 : Vec F S2x64x16384 .f32) (xo1 : Vec F S1x64x64 .f32) :
    { L1 : List (View.Piece (Elt F) S1x64x64 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__gram_kernel i arg2 harg2 arg3 harg3) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Frm

end
-- ==== Proof.KiFrame.lean ====
/-
  The frame of the accumulating kernel's program: it runs to the end, faults nowhere, and leaves both
  arguments as launched.

  The grid is 2 × 8, walked as 16 points; the output window's block depends on the first coordinate only, so
  each core's eight points share one staging buffer, written back after the eighth (points ≡ 7 mod 8). At the
  points ≡ 0 (mod 8) the body resets the buffer and adds the first block's sum; at every other point it adds
  to what the point before left, which is still there because nothing was written back in between. `outsAt0`
  states what the buffer holds after each point by recursion on the point; the proof data names it, the body
  obligation is the two cases' runs, and the launch theorem for "lines, region, lines" gives the run.
-/
import proofs.«115725_j78881369358863_2_alg».proof.Proof.KiRunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's stores tile the output block, so they cover it. -/
theorem cover0_A_1 (c : Dev nD) (i : grid0.Coords) (arg2 : Memref sig .tc .vmem S2x64x16384 .f32) (harg2 : arg2.IsWhole) (arg3 : Memref sig .tc .vmem S1x64x64 .f32) (harg3 : arg3.IsWhole) (hc0 : cond0_0 i)
    (x0 : Vec F S2x64x16384 .f32) (y : S1x64x64.Idx) :
    ∃ pc ∈ (kernelRun0_A c i arg2 harg2 arg3 harg3 hc0 x0).1, y ∈ pc.1.set :=
  View.cover_of_tiledL (kernelRun0_A c i arg2 harg2 arg3 harg3 hc0 x0).1 S1x64x64.size (by sl_kernel_rfl) y

/-- What the reset case leaves in the output's staging buffer: its pieces read back. -/
def out0_A_1 (c : Dev nD) (i : grid0.Coords) (arg2 : Memref sig .tc .vmem S2x64x16384 .f32) (harg2 : arg2.IsWhole) (arg3 : Memref sig .tc .vmem S1x64x64 .f32) (harg3 : arg3.IsWhole) (hc0 : cond0_0 i)
    (x0 : Vec F S2x64x16384 .f32) : Vec F S1x64x64 .f32 :=
  VO0_1.read (Elt F) (VO0_1.writes (Elt F) VO0_1.junk (kernelRun0_A c i arg2 harg2 arg3 harg3 hc0 x0).1)

/-- The carrying case's one store covers the output block. -/
theorem cover0_B_1 (c : Dev nD) (i : grid0.Coords) (arg2 : Memref sig .tc .vmem S2x64x16384 .f32) (harg2 : arg2.IsWhole) (arg3 : Memref sig .tc .vmem S1x64x64 .f32) (harg3 : arg3.IsWhole) (hc0 : ¬cond0_0 i)
    (x0 : Vec F S2x64x16384 .f32) (xo1 : Vec F S1x64x64 .f32) (y : S1x64x64.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x64x64.size (by sl_kernel_rfl) y

/-- What the carrying case leaves in the output's staging buffer: its pieces read back. -/
def out0_B_1 (c : Dev nD) (i : grid0.Coords) (arg2 : Memref sig .tc .vmem S2x64x16384 .f32) (harg2 : arg2.IsWhole) (arg3 : Memref sig .tc .vmem S1x64x64 .f32) (harg3 : arg3.IsWhole) (hc0 : ¬cond0_0 i)
    (x0 : Vec F S2x64x16384 .f32) (xo1 : Vec F S1x64x64 .f32) : Vec F S1x64x64 .f32 :=
  VO0_1.read (Elt F) (VO0_1.writes (Elt F) VO0_1.junk (kernelRun0_B c i arg2 harg2 arg3 harg3 hc0 x0 xo1).1)

/-! ## What the output buffer holds after each point -/

/-- The running sum: after position `n` the output's staging buffer holds the reset case's result at the
    points ≡ 0 (mod 8), and elsewhere the carrying case's result over what position `n - 1` left. -/
def outsAt0 (c : Dev nD) : (n : ℕ) → n < cfg0.N → Vec F S1x64x64 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

/-- `outsAt0` at a reset point. -/
theorem outsAt0_A (c : Dev nD) (t : Fin cfg0.N) (h0 : t.val % 8 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

/-- `outsAt0` at a carrying point: over what the point before left. -/
theorem outsAt0_B (c : Dev nD) (t : Fin cfg0.N) (h0 : ¬t.val % 8 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` the input's
    buffer at its block and the output's at the running sum; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- At a carrying point the output's current staging buffer holds what the body left at the point before: the
    point is not the first, and the buffer was not written back in between (that happens only after points ≡ 7). -/
theorem before0_1_B (c : Dev nD) (t : Fin cfg0.N) (h0 : ¬t.val % 8 = 0) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the input's memref holds its block; the closed form says which case the point is in; in
    the carrying case the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 16 := lt_of_lt_of_eq t.isLt (show cfg0.N = 16 from N_0)
  by_cases h0 : t.val % 8 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what
    the proof data gives and every other unscoped buffer as the lines after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frm

end
-- ==== Proof.KiPay.lean ====
/-
  The accumulate payload of the kernel body, read at an index over the extended reals.

  For an input block x of two batch rows (2 × 64 × 16384) write m = max(0, (x + 1) · ½) for the clipped masks,
  s(b, i) = Σ_k m(b, i, k) for a node's mass, g(b, i, j) = Σ_k m(b, i, k) · m(b, j, k) for the overlap of two nodes,
  and r(b, i, j) = g(b, i, j) / min(s(b, i), s(b, j)) for their ratio. The payload stored into the 1 × 64 × 64
  accumulator block holding `acc` is, at (0, i, j), acc(0, i, j) + Σ_{b < 2} r(b, i, j): a change of float format is the
  identity here, the matrix unit's product into a zero accumulator is the plain sum of products, and each lane
  reduction from zero is the plain sum.
-/
import proofs.«115725_j78881369358863_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Idealize.ShloMosaic Idealize.ShloMosaic.TcCoe Idealize.ShloMosaic.ValueIdx
open Cert.KernelIdeal Cert.KernelIdeal.Gen

/-- A clipped mask entry: max(0, (v + 1) · ½), with the three constants as the body spells them. -/
def clip (v : EReal) : EReal :=
  max (Ideal.ofBits .f32 0x00000000#32) ((v + Ideal.ofBits .f32 0x3F800000#32) * Ideal.ofBits .f32 0x3F000000#32)

/-- A node's mass in one batch row of a block. -/
def mass (x : S2x64x16384.Idx → EReal) (b : Fin 2) (i : Fin 64) : EReal := ∑ k : Fin 16384, clip (x (ix3 b i k))

/-- Two nodes' overlap in one batch row of a block. -/
def overlap (x : S2x64x16384.Idx → EReal) (b : Fin 2) (i j : Fin 64) : EReal :=
  ∑ k : Fin 16384, clip (x (ix3 b i k)) * clip (x (ix3 b j k))

/-- Their ratio: the overlap over the smaller mass. -/
def ratio (x : S2x64x16384.Idx → EReal) (b : Fin 2) (i j : Fin 64) : EReal :=
  Ideal.div (overlap x b i j) (min (mass x b i) (mass x b j))

/-! ## The body's intermediate vectors -/

/-- The clipped block. -/
def vClip (x : Vec Ideal S2x64x16384 .f32) : FVec Ideal S2x64x16384 .f32 :=
  maximumf (broadcast S2x64x16384 (Scalar.ofBits .f32 0x00000000#32))
    (mulf (addf (shapeCast S2x64x16384 x shapeCasts_S2x64x16384_S2x64x16384) (broadcast S2x64x16384 (Scalar.ofBits .f32 0x3F800000#32)))
      (broadcast S2x64x16384 (Scalar.ofBits .f32 0x3F000000#32)))

theorem vClip_apply (x : Vec Ideal S2x64x16384 .f32) (j : S2x64x16384.Idx) : vClip x j = clip (x j) := by
  unfold vClip
  rw [shapeCast_self]
  rfl

/-- The masses of the block's rows. -/
def vMass (x : Vec Ideal S2x64x16384 .f32) : FVec Ideal S2x64 .f32 :=
  multiReduction .add [2] S2x64 (vClip x) 0x00000000#32 reduces_S2x64x16384_S2x64 (.inl rfl) rfl

theorem vMass_apply (x : Vec Ideal S2x64x16384 .f32) (b : Fin 2) (i : Fin 64) : vMass x (ix2 b i) = mass x b i := by
  unfold vMass mass
  refine (Ideal.multiReduction_add_single (vClip x) 0x00000000#32 reduces_S2x64x16384_S2x64 (.inl rfl) rfl (ix2 b i)).trans ?_
  show ∑ k : Fin 16384, vClip x (reduces_S2x64x16384_S2x64.lift (ix2 b i) k) = _
  refine Finset.sum_congr rfl fun k _ => ?_
  rw [vClip_apply]
  exact congrArg (fun j => clip (x j)) (funext fun a => Fin.ext (by match a with | ⟨0, _⟩ => rfl | ⟨1, _⟩ => rfl | ⟨2, _⟩ => rfl))

/-- The overlaps: the matrix unit's product of the (format-changed) clipped block with itself, contracted over the
    last axis within each batch row, into a zero accumulator. -/
def vGram (x : Vec Ideal S2x64x16384 .f32) : FVec Ideal S2x64x64 .f32 :=
  matmul dot_S2x64x16384_S2x64x16384_S2x64x64_2_2_1_1_0_0 none (truncf .bf16 (vClip x) bitsLt_bf16_f32) (truncf .bf16 (vClip x) bitsLt_bf16_f32) (constant S2x64x64 .f32 0x00000000#32)

theorem lhs_0 (i : S2x64x64.Idx) (q : dot_S2x64x16384_S2x64x16384_S2x64x64_2_2_1_1_0_0.contr.Idx) : (dot_S2x64x16384_S2x64x16384_S2x64x64_2_2_1_1_0_0.lhsIdx i q 0).val = (i 0).val := by
  unfold DotDims.lhsIdx
  rw [dif_pos (show (0 : Fin S2x64x16384.rank) ∈ dot_S2x64x16384_S2x64x16384_S2x64x64_2_2_1_1_0_0.lhsBatch by decide)]
  rfl
theorem lhs_1 (i : S2x64x64.Idx) (q : dot_S2x64x16384_S2x64x16384_S2x64x64_2_2_1_1_0_0.contr.Idx) : (dot_S2x64x16384_S2x64x16384_S2x64x64_2_2_1_1_0_0.lhsIdx i q 1).val = (i 1).val := by
  unfold DotDims.lhsIdx
  rw [dif_neg (show ¬(1 : Fin S2x64x16384.rank) ∈ dot_S2x64x16384_S2x64x16384_S2x64x64_2_2_1_1_0_0.lhsBatch by decide), dif_pos (show (1 : Fin S2x64x16384.rank) ∈ dot_S2x64x16384_S2x64x16384_S2x64x64_2_2_1_1_0_0.lhsNonContracting by decide)]
  rfl
theorem lhs_2 (i : S2x64x64.Idx) (q : dot_S2x64x16384_S2x64x16384_S2x64x64_2_2_1_1_0_0.contr.Idx) : (dot_S2x64x16384_S2x64x16384_S2x64x64_2_2_1_1_0_0.lhsIdx i q 2).val = (q ⟨0, by decide⟩).val :=
  dot_S2x64x16384_S2x64x16384_S2x64x64_2_2_1_1_0_0.lhsIdx_val_of_single rfl i q
theorem rhs_0 (i : S2x64x64.Idx) (q : dot_S2x64x16384_S2x64x16384_S2x64x64_2_2_1_1_0_0.contr.Idx) : (dot_S2x64x16384_S2x64x16384_S2x64x64_2_2_1_1_0_0.rhsIdx i q 0).val = (i 0).val := by
  unfold DotDims.rhsIdx
  rw [dif_pos (show (0 : Fin S2x64x16384.rank) ∈ dot_S2x64x16384_S2x64x16384_S2x64x64_2_2_1_1_0_0.rhsBatch by decide)]
  rfl
theorem rhs_1 (i : S2x64x64.Idx) (q : dot_S2x64x16384_S2x64x16384_S2x64x64_2_2_1_1_0_0.contr.Idx) : (dot_S2x64x16384_S2x64x16384_S2x64x64_2_2_1_1_0_0.rhsIdx i q 1).val = (i 2).val := by
  unfold DotDims.rhsIdx
  rw [dif_neg (show ¬(1 : Fin S2x64x16384.rank) ∈ dot_S2x64x16384_S2x64x16384_S2x64x64_2_2_1_1_0_0.rhsBatch by decide), dif_pos (show (1 : Fin S2x64x16384.rank) ∈ dot_S2x64x16384_S2x64x16384_S2x64x64_2_2_1_1_0_0.rhsNonContracting by decide)]
  rfl
theorem rhs_2 (i : S2x64x64.Idx) (q : dot_S2x64x16384_S2x64x16384_S2x64x64_2_2_1_1_0_0.contr.Idx) : (dot_S2x64x16384_S2x64x16384_S2x64x64_2_2_1_1_0_0.rhsIdx i q 2).val = (q ⟨0, by decide⟩).val :=
  dot_S2x64x16384_S2x64x16384_S2x64x64_2_2_1_1_0_0.rhsIdx_val_of_single rfl i q

theorem vGram_apply (x : Vec Ideal S2x64x16384 .f32) (b : Fin 2) (i j : Fin 64) : vGram x (ix3 b i j) = overlap x b i j := by
  unfold vGram overlap
  simp only [matmul]
  rw [Ideal.matmul_constant_zero_apply, ← Equiv.sum_comp (contrEquiv1 dot_S2x64x16384_S2x64x16384_S2x64x64_2_2_1_1_0_0 16384 rfl rfl).symm]
  refine Finset.sum_congr rfl fun k _ => ?_
  have hk := contrEquiv1_symm_val dot_S2x64x16384_S2x64x16384_S2x64x64_2_2_1_1_0_0 16384 rfl rfl k
  have el : dot_S2x64x16384_S2x64x16384_S2x64x64_2_2_1_1_0_0.lhsIdx (ix3 b i j) ((contrEquiv1 dot_S2x64x16384_S2x64x16384_S2x64x64_2_2_1_1_0_0 16384 rfl rfl).symm k) = ix3 b i k := funext fun a => Fin.ext (by
    match a with
    | ⟨0, _⟩ => exact lhs_0 _ _
    | ⟨1, _⟩ => exact lhs_1 _ _
    | ⟨2, _⟩ => exact (lhs_2 _ _).trans hk)
  have er : dot_S2x64x16384_S2x64x16384_S2x64x64_2_2_1_1_0_0.rhsIdx (ix3 b i j) ((contrEquiv1 dot_S2x64x16384_S2x64x16384_S2x64x64_2_2_1_1_0_0 16384 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  rw [el, er]
  show vClip x _ * vClip x _ = _
  rw [vClip_apply, vClip_apply]

/-- The smaller of two nodes' masses, for every pair: the masses as a column and as a row, both spread over the pairs. -/
def vMin (x : Vec Ideal S2x64x16384 .f32) : FVec Ideal S2x64x64 .f32 :=
  minimumf (broadcastTo S2x64x64 (shapeCast S2x64x1 (vMass x) shapeCasts_S2x64_S2x64x1) broadcasts_S2x64x1_S2x64x64)
    (broadcastTo S2x64x64 (shapeCast S2x1x64 (vMass x) shapeCasts_S2x64_S2x1x64) broadcasts_S2x1x64_S2x64x64)

theorem col_apply (v : S2x64.Idx → EReal) (b : Fin 2) (i j : Fin 64) :
    broadcastTo S2x64x64 (shapeCast S2x64x1 v shapeCasts_S2x64_S2x64x1) broadcasts_S2x64x1_S2x64x64 (ix3 b i j) = v (ix2 b i) := by
  rw [broadcastTo_apply _ broadcasts_S2x64x1_S2x64x64 (ix3 b i j) (ix3 b i (0 : Fin 1)) (fun a => match a with
    | ⟨0, _⟩ => by show b.val = if (2 : Nat) = 1 then 0 else b.val; rw [if_neg (by decide)]
    | ⟨1, _⟩ => by show i.val = if (64 : Nat) = 1 then 0 else i.val; rw [if_neg (by decide)]
    | ⟨2, _⟩ => by show 0 = if (1 : Nat) = 1 then 0 else j.val; rw [if_pos rfl])]
  exact shapeCast_apply v shapeCasts_S2x64_S2x64x1 _ _ (by
    rw [Shape.rowMajor_val_two, Shape.rowMajor_val_three]
    show b.val * 64 + i.val = (b.val * 64 + i.val) * 1 + 0
    omega)

theorem row_apply (v : S2x64.Idx → EReal) (b : Fin 2) (i j : Fin 64) :
    broadcastTo S2x64x64 (shapeCast S2x1x64 v shapeCasts_S2x64_S2x1x64) broadcasts_S2x1x64_S2x64x64 (ix3 b i j) = v (ix2 b j) := by
  rw [broadcastTo_apply _ broadcasts_S2x1x64_S2x64x64 (ix3 b i j) (ix3 b (0 : Fin 1) j) (fun a => match a with
    | ⟨0, _⟩ => by show b.val = if (2 : Nat) = 1 then 0 else b.val; rw [if_neg (by decide)]
    | ⟨1, _⟩ => by show 0 = if (1 : Nat) = 1 then 0 else i.val; rw [if_pos rfl]
    | ⟨2, _⟩ => by show j.val = if (64 : Nat) = 1 then 0 else j.val; rw [if_neg (by decide)])]
  exact shapeCast_apply v shapeCasts_S2x64_S2x1x64 _ _ (by
    rw [Shape.rowMajor_val_two, Shape.rowMajor_val_three]
    show b.val * 64 + j.val = (b.val * 1 + 0) * 64 + j.val
    omega)

theorem vMin_apply (x : Vec Ideal S2x64x16384 .f32) (b : Fin 2) (i j : Fin 64) :
    vMin x (ix3 b i j) = min (mass x b i) (mass x b j) := by
  unfold vMin
  rw [minimumf_apply, col_apply, row_apply, vMass_apply, vMass_apply]

/-- The ratios of the block's two batch rows, summed over the rows. -/
def vStep (x : Vec Ideal S2x64x16384 .f32) : FVec Ideal S64x64 .f32 :=
  multiReduction .add [0] S64x64 (divf (vGram x) (vMin x)) 0x00000000#32 reduces_S2x64x64_S64x64 (.inl rfl) rfl

theorem vStep_apply (x : Vec Ideal S2x64x16384 .f32) (i j : Fin 64) : vStep x (ix2 i j) = ∑ b : Fin 2, ratio x b i j := by
  unfold vStep ratio
  refine (Ideal.multiReduction_add_single (divf (vGram x) (vMin x)) 0x00000000#32 reduces_S2x64x64_S64x64 (.inl rfl) rfl (ix2 i j)).trans ?_
  show ∑ b : Fin 2, divf (vGram x) (vMin x) (reduces_S2x64x64_S64x64.lift (ix2 i j) b) = _
  refine Finset.sum_congr rfl fun b _ => ?_
  have e : reduces_S2x64x64_S64x64.lift (ix2 i j) b = ix3 b i j :=
    funext fun a => Fin.ext (by match a with | ⟨0, _⟩ => rfl | ⟨1, _⟩ => rfl | ⟨2, _⟩ => rfl)
  rw [e]
  refine (divf_apply (vGram x) (vMin x) (ix3 b i j)).trans ?_
  rw [vGram_apply, vMin_apply]

/-- The payload is these vectors composed as the body composes them. -/
theorem pay2_eq (x : Vec Ideal S2x64x16384 .f32) (acc : Vec Ideal S1x64x64 .f32) :
    k0_pay2 (F := Ideal) x acc
      = shapeCast S1x64x64 (addf (shapeCast S64x64 acc shapeCasts_S1x64x64_S64x64) (vStep x)) shapeCasts_S64x64_S1x64x64 := rfl

/-- The accumulate payload at (0, i, j): the accumulator there plus the two rows' ratios. -/
theorem pay2_apply (x : Vec Ideal S2x64x16384 .f32) (acc : Vec Ideal S1x64x64 .f32) (i j : Fin 64) :
    k0_pay2 (F := Ideal) x acc (ix3 (0 : Fin 1) i j) = acc (ix3 (0 : Fin 1) i j) + ∑ b : Fin 2, ratio x b i j := by
  rw [pay2_eq, shapeCast_ab_1ab_apply, addf_apply, shapeCast_1ab_ab_apply, vStep_apply]

/-- The reset payload is zero everywhere. -/
theorem pay1_apply (y : S1x64x64.Idx) : k0_pay1 (F := Ideal) y = 0 := by
  obtain ⟨u, i, j, rfl⟩ : ∃ (u : Fin 1) (i j : Fin 64), y = ix3 u i j := ⟨y 0, y 1, y 2, eq_ix3 y⟩
  unfold k0_pay1
  rw [shapeCast_ab_1ab_apply, broadcast_apply]
  exact Ideal.ofBits_zero_f32

end Cert.KernelIdeal.Pay

end
-- ==== Proof.KiValue.lean ====
/-
  What the accumulating kernel's output array holds after the run, read off its frame run.

  Each case's pieces read back are the accumulate payload (of the zero block at a reset point, of the running sum
  elsewhere). So the buffer after point n is a fold that restarts at the points ≡ 0 (mod 8), and at the point 8q + 7 that
  writes block q back it is 0 + Σ_{s < 8} (the ratios of the two batch rows of input block 8q + s, summed). The two
  flushing points' blocks are the two halves of the output array, so that array is this function of (q, i, j).
-/
import proofs.«115725_j78881369358863_2_alg».proof.Proof.KiFrame
import proofs.«115725_j78881369358863_2_alg».proof.Proof.KiPay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Frm

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-- At a carrying point the body leaves, in the output's staging buffer holding `xo`, the accumulate payload of the
    input block and `xo`. -/
theorem out_B (c : Dev nD) (i : grid0.Coords) (a1 : Memref sig .tc .vmem S2x64x16384 .f32) (h1 : a1.IsWhole)
    (a2 : Memref sig .tc .vmem S1x64x64 .f32) (h2 : a2.IsWhole) (hc : ¬cond0_0 i) (x : Vec F S2x64x16384 .f32) (xo : Vec F S1x64x64 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz3]
  simp only [View.readAt_eq_ld, h1.read_unread, h2.read_unread, View.ld_unit_zero (S := S2x64x16384) hz3, View.ld_unit_zero (S := S1x64x64) hz3]

/-- At a reset point it stores the zero block, reads it back, and leaves the accumulate payload of the input block and
    the zero block. -/
theorem out_A (c : Dev nD) (i : grid0.Coords) (a1 : Memref sig .tc .vmem S2x64x16384 .f32) (h1 : a1.IsWhole)
    (a2 : Memref sig .tc .vmem S1x64x64 .f32) (h2 : a2.IsWhole) (hc : cond0_0 i) (x : Vec F S2x64x16384 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x64x64) hz3, View.readCov_unit_zero (S := S1x64x64) _ hz3]
  simp only [View.readAt_eq_ld, h1.read_unread, View.ld_unit_zero (S := S2x64x16384) hz3, View.ld_unit_zero (S := S1x64x64) hz3]

/-! ## Over the extended reals -/

section AtIdeal

open Idealize.ShloMosaic.ValueIdx

variable (m : (ℓ : Loc nD τ sig) → Buf (Elt Ideal) ℓ) (ρ : Dev nD → PrngReg)

/-- The printed index maps, decided over the 16 grid points: the input's block index is the point itself, the
    output's is the point's group of eight. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0 :=
  (by decide +kernel : ∀ t : Fin grid0.N, _)

/-- The input block at point t is batch rows 2t and 2t + 1 of the region's input array. -/
theorem iblk_apply (c : Dev nD) (t : Fin cfg0.N) (b : Fin 2) (n : Fin 64) (k : Fin 16384) (hb : 2 * t.val + b.val < 32) :
    (iblk m c 0 t : Vec Ideal S2x64x16384 .f32) (ix3 b n k) = (V m c main_v0 : S32x64x16384.Idx → EReal) (ix3 ⟨2 * t.val + b.val, hb⟩ n k) := by
  unfold iblk
  rw [View.read_apply]
  show V m c main_v0 (((cfg0.win 0).blk t).view.emb (ix3 b n k)) = V m c main_v0 _
  refine congrArg _ (funext fun a => Fin.ext ?_)
  obtain ⟨h0, h1, h2, -, -, -⟩ := idx_facts t
  match a with
  | ⟨0, _⟩ => show win0_0.index t (0 : Fin 3) * 2 + 1 * b.val = 2 * t.val + b.val; rw [h0]; omega
  | ⟨1, _⟩ => show win0_0.index t (1 : Fin 3) * 64 + 1 * n.val = n.val; rw [h1]; omega
  | ⟨2, _⟩ => show win0_0.index t (2 : Fin 3) * 16384 + 1 * k.val = k.val; rw [h2]; omega

/-- The accumulate payload at any index of the output block. -/
theorem pay2_at (x : Vec Ideal S2x64x16384 .f32) (acc : Vec Ideal S1x64x64 .f32) (y : S1x64x64.Idx) :
    k0_pay2 (F := Ideal) x acc y = acc y + ∑ b : Fin 2, Pay.ratio x b (y 1) (y 2) := by
  obtain ⟨u, i, j, rfl⟩ : ∃ (u : Fin 1) (i j : Fin 64), y = ix3 u i j := ⟨y 0, y 1, y 2, eq_ix3 y⟩
  obtain rfl : u = 0 := Subsingleton.elim _ _
  exact Pay.pay2_apply x acc i j

/-- What point n adds: the ratios of its input block's two batch rows, summed (zero past the grid). -/
def stepAt (c : Dev nD) (n : ℕ) (y : S1x64x64.Idx) : EReal :=
  if h : n < cfg0.N then ∑ b : Fin 2, Pay.ratio (iblk m c 0 ⟨n, h⟩ : Vec Ideal S2x64x16384 .f32) b (y 1) (y 2) else 0

/-- At the point 8q + 7 the output's staging buffer holds the eight steps of group q, summed from zero. -/
theorem outs_at_flush (c : Dev nD) (q : ℕ) (h : 8 * q + 7 < cfg0.N) (y : S1x64x64.Idx) :
    outsAt0 m c (8 * q + 7) h y = 0 + ∑ s ∈ Finset.range (7 + 1), stepAt m c (8 * q + s) y := by
  have h0 : ∀ (n : ℕ) (hn : n < cfg0.N), n % 8 = 0 →
      outsAt0 m c n hn = k0_pay2 (F := Ideal) (iblk m c 0 ⟨n, hn⟩) (k0_pay1 (F := Ideal)) :=
    fun n hn hm => (outsAt0_A m c ⟨n, hn⟩ hm).trans (out_A ..)
  have hs : ∀ (n : ℕ) (hn : n + 1 < cfg0.N), ¬(n + 1) % 8 = 0 →
      outsAt0 m c (n + 1) hn = k0_pay2 (F := Ideal) (iblk m c 0 ⟨n + 1, hn⟩) (outsAt0 m c n (Nat.lt_of_succ_lt hn)) :=
    fun n hn hm => (outsAt0_B m c ⟨n + 1, hn⟩ hm).trans (out_B ..)
  rw [Pipeline.eq_accAt (outsAt0 m c) 8
    (fun n hn => k0_pay2 (F := Ideal) (iblk m c 0 ⟨n, hn⟩) (k0_pay1 (F := Ideal)))
    (fun n hn acc => k0_pay2 (F := Ideal) (iblk m c 0 ⟨n, hn⟩) acc) h0 hs q 7 (by decide) h]
  refine Pipeline.accAt_add_apply _ _ (fun _ => (0 : EReal)) (stepAt m c) (8 * q) 7 ?_ ?_ 7 le_rfl h y
  · intro hb i
    rw [pay2_at, Pay.pay1_apply]
    unfold stepAt
    rw [dif_pos hb]
  · intro n hn acc i _ _
    rw [pay2_at]
    unfold stepAt
    rw [dif_pos hn]

/-- The output array after the run: at (q, i, j) the eight steps of group q at (i, j), summed from zero. -/
def final (c : Dev nD) : Buf (Elt Ideal) ((c : Thread nD τ).loc main_v1) := fun idx =>
  0 + ∑ s ∈ Finset.range (7 + 1), stepAt m c (8 * (idx 0).val + s) (ix3 (0 : Fin 1) (idx 1) (idx 2))

/-- A point that writes back writes its group's block of that array. -/
theorem flushed_eq (c : Dev nD) (t : Fin cfg0.N) (hf : (cfg0.win 1).flush t = true) :
    (dats m 0 c).flushed 1 t = ((cfg0.win 1).blk t).view.read (Elt Ideal) (final m c) := by
  have h7 : t.val % 8 = 7 := (flush0_1 t).mp hf
  have hN : t.val < 16 := lt_of_lt_of_eq t.isLt (show cfg0.N = 16 from N_0)
  show (cfg0.win 1).cut (grid0.coords t) ((dats m 0 c).after 1 t) = _
  rw [after0_1]
  funext y
  rw [View.read_apply]
  obtain ⟨u, i, j, rfl⟩ : ∃ (u : Fin 1) (i j : Fin 64), y = ix3 u i j := ⟨y 0, y 1, y 2, eq_ix3 y⟩
  obtain rfl : u = 0 := Subsingleton.elim _ _
  have he : ((cfg0.win 1).blk t).view.emb (ix3 (0 : Fin 1) i j) = (ix3 (⟨t.val / 8, by omega⟩ : Fin 2) i j : S2x64x64.Idx) :=
    funext fun a => Fin.ext (by
      obtain ⟨-, -, -, e0, e1, e2⟩ := idx_facts t
      match a with
      | ⟨0, _⟩ => show win0_1.index t (0 : Fin 3) * 1 + 1 * 0 = t.val / 8; rw [e0]; omega
      | ⟨1, _⟩ => show win0_1.index t (1 : Fin 3) * 64 + 1 * i.val = i.val; rw [e1]; omega
      | ⟨2, _⟩ => show win0_1.index t (2 : Fin 3) * 64 + 1 * j.val = j.val; rw [e2]; omega)
  rw [he]
  show outsAt0 m c t.val t.isLt (ix3 (0 : Fin 1) i j) = 0 + ∑ s ∈ Finset.range (7 + 1), stepAt m c (8 * (t.val / 8) + s) (ix3 (0 : Fin 1) i j)
  have hq : 8 * (t.val / 8) + 7 = t.val := by omega
  have same : ∀ (u : ℕ) (hu : u < cfg0.N), u = t.val → outsAt0 m c u hu = outsAt0 m c t.val t.isLt := fun u hu e => by subst e; rfl
  have hlt : 8 * (t.val / 8) + 7 < cfg0.N := lt_of_eq_of_lt hq t.isLt
  rw [← same (8 * (t.val / 8) + 7) hlt hq]
  exact outs_at_flush m c (t.val / 8) hlt _

/-- An index of the output array is in point t's block iff each coordinate is in the block's range on its axis. -/
theorem mem_blk (t : Fin cfg0.N) (i : S2x64x64.Idx) :
    i ∈ ((cfg0.win 1).blk t).view.set ↔ ∀ a : Fin 3, win0_1.index t a * S1x64x64.size a ≤ (i a).val ∧ (i a).val < win0_1.index t a * S1x64x64.size a + S1x64x64.size a := by
  show i ∈ ((View.whole main_v1).slice (win0_1.rect t)).set ↔ _
  rw [View.set_slice_whole, Rect.mem_set_unit]
  exact Iff.rfl

/-- The two flushing points' blocks cover the output array, so it ends holding `final`. -/
theorem final_eq (c : Dev nD) : (dats m 0 c).arrAt 1 cfg0.N = final m c :=
  (dats m 0 c).arrAt_eq_of_cover 1 (final m c) (flushed_eq m c) fun i => by
    have hi0 : (i 0).val < 2 := (i 0).isLt
    have hi1 : (i 1).val < 64 := (i 1).isLt
    have hi2 : (i 2).val < 64 := (i 2).isLt
    have hN : cfg0.N = 16 := N_0
    refine ⟨⟨8 * (i 0).val + 7, by omega⟩, (flush0_1 _).mpr (by show (8 * (i 0).val + 7) % 8 = 7; omega), ?_⟩
    rw [mem_blk]
    obtain ⟨-, -, -, e0, e1, e2⟩ := idx_facts ⟨8 * (i 0).val + 7, by omega⟩
    intro a
    match a with
    | ⟨0, _⟩ => show win0_1.index _ (0 : Fin 3) * 1 ≤ (i 0).val ∧ (i 0).val < win0_1.index _ (0 : Fin 3) * 1 + 1; rw [e0]; dsimp only; omega
    | ⟨1, _⟩ => show win0_1.index _ (1 : Fin 3) * 64 ≤ (i 1).val ∧ (i 1).val < win0_1.index _ (1 : Fin 3) * 64 + 64; rw [e1]; omega
    | ⟨2, _⟩ => show win0_1.index _ (2 : Fin 3) * 64 ≤ (i 2).val ∧ (i 2).val < win0_1.index _ (2 : Fin 3) * 64 + 64; rw [e2]; omega

end AtIdeal

end Cert.KernelIdeal.Val

end
-- ==== Proof.Spec.lean ====
/-
  The quantity both programs compute, and the one rearrangement between them.

  For one batch row of masks x(n, k) (64 nodes × 16384 pixels) write m = max(0, (x + 1) · ½), a node's mass
  s(i) = Σ_k m(i, k), two nodes' overlap g(i, j) = Σ_k m(i, k) · m(j, k), and their ratio r(i, j) = g(i, j) / min(s(i), s(j)).
  Both programs end with the mean of r over the 32 batch rows fed to the same weighted loss. The reference sums the 32
  rows at once; the kernel sums them as 2 groups (one per core) of 8 steps of 2 rows, each group and each step starting
  from zero. Addition on the extended reals is commutative and associative with 0 neutral (also at the infinities), so
  the two are one sum.
-/
import Idealize.ShloMosaic.PureOps.Ideal
import Mathlib.Algebra.BigOperators.Fin

noncomputable section

namespace Cert.Spec

open Idealize.ShloMosaic

/-- A clipped mask entry: max(0, (v + 1) · ½). -/
def clip (v : EReal) : EReal :=
  max (Ideal.ofBits .f32 0x00000000#32) ((v + Ideal.ofBits .f32 0x3F800000#32) * Ideal.ofBits .f32 0x3F000000#32)

/-- A node's mass in a batch row. -/
def mass (x : Fin 64 → Fin 16384 → EReal) (i : Fin 64) : EReal := ∑ k : Fin 16384, clip (x i k)

/-- Two nodes' overlap in a batch row. -/
def overlap (x : Fin 64 → Fin 16384 → EReal) (i j : Fin 64) : EReal := ∑ k : Fin 16384, clip (x i k) * clip (x j k)

/-- Their ratio: the overlap over the smaller mass. -/
def ratio (x : Fin 64 → Fin 16384 → EReal) (i j : Fin 64) : EReal :=
  Ideal.div (overlap x i j) (min (mass x i) (mass x j))

/-- The mean ratio over the 32 batch rows, the divisor the constant 32.0 as both programs spell it. -/
def meanRatio (x : Fin 32 → Fin 64 → Fin 16384 → EReal) (i j : Fin 64) : EReal :=
  Ideal.div (∑ b : Fin 32, ratio (x b) i j) (Ideal.ofBits .f32 0x42000000#32)

/-- 2 groups of 8 steps of 2 consecutive terms, each group started from zero, are the 32 terms. -/
theorem regroup {β : Type} [AddCommMonoid β] (R : ℕ → β) :
    ∑ c : Fin 2, (0 + ∑ s ∈ Finset.range 8, ∑ bb : Fin 2, R (2 * (8 * c.val + s) + bb.val)) = ∑ b : Fin 32, R b.val := by
  rw [Fin.sum_univ_eq_sum_range (fun n => R n) 32]
  simp only [Fin.sum_univ_two, zero_add, Finset.sum_range_succ, Finset.sum_range_zero, Fin.val_zero, Fin.val_one,
    Nat.mul_zero, Nat.mul_one, Nat.add_zero, Nat.zero_add, Nat.reduceMul, Nat.reduceAdd]
  ac_rfl

end Cert.Spec

end
-- ==== Proof.Consts.lean ====
/-
  The two float constants in which the kernel and the reference differ, as the extended reals their patterns denote:
  the kernel halves by multiplying with 0.5, the reference by dividing by 2.0; and the one law that joins them:
  on every extended real, dividing by 2 is multiplying by 1/2.
-/
import Idealize.ShloMosaic.PureOps.Ideal

noncomputable section

namespace Cert.Consts

open Idealize.ShloMosaic

/-- `0.5` denotes the real `1/2`. -/
theorem ofBits_half : Ideal.ofBits .f32 0x3F000000#32 = ((1 / 2 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- Halving by the quotient is halving by the product, at every extended real (the infinities included). -/
theorem div_two_eq_mul_half (z : EReal) :
    Ideal.div z (Ideal.ofBits .f32 0x40000000#32) = z * Ideal.ofBits .f32 0x3F000000#32 := by
  rw [ofBits_two, ofBits_half, Ideal.div_coe (by norm_num : (2 : ℝ) ≠ 0)]

end Cert.Consts

end
-- ==== Proof.RefValue.lean ====
/-
  The reference, read at an index over the extended reals.

  Its result is the weighted loss of the mean-ratio array: the last stages take that 64 × 64 array and the nodes and do
  nothing else with the masks (`tailOf`). The mean-ratio array itself is, at (i, j), the mean over the 32 batch rows of
  overlap(i, j) / min(mass(i), mass(j)) of the flattened, clipped masks: the host's sums from a zero initial value are
  plain sums, its quotient by 2 in the clip is the product with ½, and the flattening reads the masks at the same
  row-major position.
-/
import proofs.«115725_j78881369358863_2_alg».proof.Proof.Gen.ReferenceIdeal.Read
import proofs.«115725_j78881369358863_2_alg».proof.Proof.Spec
import proofs.«115725_j78881369358863_2_alg».proof.Proof.Consts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-- The loss of a mean-ratio array `cr` under the nodes' weights: Σ |β − cr| · w / Σ w, with β and w the node-type
    arrays the program computes from the nodes alone. -/
def tailOf (cr : (⟨S64x64, .f32⟩ : BufTy).Contents (Elt F)) (x1 : (⟨S64, .i32⟩ : BufTy).Contents (Elt F)) :
    (⟨S_, .f32⟩ : BufTy).Contents (Elt F) :=
  Host.divf (Host.reduceAdd (mulf (Host.absf (subf (val_main_v67 (F := F) x1) cr)) (val_main_v71 (F := F) x1))
    (val_main_cst_22 (F := F)) reducesTo_S64x64_S_d0_1 h_S_) (val_main_v76 (F := F) x1)

/-- The reference's result is that loss of its mean-ratio array. -/
theorem result_eq_tail (x0 : (⟨S32x64x128x128, .f32⟩ : BufTy).Contents (Elt F)) (x1 : (⟨S64, .i32⟩ : BufTy).Contents (Elt F)) :
    val_main_v77 (F := F) x0 x1 = tailOf (val_main_v16 (F := F) x0) x1 := rfl

/-- The masks flattened: batch row b, node n, pixel k. -/
def rows (x0 : S32x64x128x128.Idx → EReal) (b : Fin 32) (n : Fin 64) (k : Fin 16384) : EReal :=
  x0 (idx_main_v5 (ix3 b n k))

/-- The clipped, flattened masks. -/
theorem v5_apply (x0 : (⟨S32x64x128x128, .f32⟩ : BufTy).Contents (Elt Ideal)) (b : Fin 32) (n : Fin 64) (k : Fin 16384) :
    val_main_v5 (F := Ideal) x0 (ix3 b n k) = Cert.Spec.clip (rows x0 b n k) := by
  rw [val_main_v5_apply, val_main_v4_apply, val_main_call0_v1_apply, val_main_call0_v0_apply, val_main_cst_1_apply,
    val_main_v3_apply, val_main_v1_apply, val_main_v0_apply, val_main_cst_apply, val_main_v2_apply, val_main_cst_0_apply]
  simp only [Ideal.maximumf_def, Ideal.hostDivf_def, Ideal.addf_def, Ideal.ofBits_def]
  rw [Cert.Consts.div_two_eq_mul_half]
  rfl

/-- A node's mass in a batch row. -/
theorem v7_apply (x0 : (⟨S32x64x128x128, .f32⟩ : BufTy).Contents (Elt Ideal)) (b : Fin 32) (i : Fin 64) :
    val_main_v7 (F := Ideal) x0 (ix2 b i) = Cert.Spec.mass (rows x0 b) i := by
  rw [val_main_v7_apply, val_main_cst_2_apply]
  simp only [Ideal.ofBits_def]
  rw [Ideal.ofBits_zero_f32, zero_add]
  unfold Cert.Spec.mass
  refine Finset.sum_congr rfl fun k _ => ?_
  exact (congrArg (val_main_v5 (F := Ideal) x0) (funext fun a => Fin.ext (by match a with | ⟨0, _⟩ => rfl | ⟨1, _⟩ => rfl | ⟨2, _⟩ => rfl))).trans (v5_apply x0 b i k)

/-- Two nodes' overlap in a batch row. -/
theorem v6_apply (x0 : (⟨S32x64x128x128, .f32⟩ : BufTy).Contents (Elt Ideal)) (b : Fin 32) (i j : Fin 64) :
    val_main_v6 (F := Ideal) x0 (ix3 b i j) = Cert.Spec.overlap (rows x0 b) i j := by
  rw [val_main_v6_apply]
  unfold Cert.Spec.overlap
  refine Finset.sum_congr rfl fun k _ => ?_
  have el : lidx_main_v6 (ix3 b i j) k = ix3 b i k := funext fun a => Fin.ext (by match a with | ⟨0, _⟩ => rfl | ⟨1, _⟩ => rfl | ⟨2, _⟩ => rfl)
  have er : ridx_main_v6 (ix3 b i j) k = ix3 b j k := funext fun a => Fin.ext (by match a with | ⟨0, _⟩ => rfl | ⟨1, _⟩ => rfl | ⟨2, _⟩ => rfl)
  rw [el, er, v5_apply, v5_apply]

/-- Their ratio. -/
theorem v13_apply (x0 : (⟨S32x64x128x128, .f32⟩ : BufTy).Contents (Elt Ideal)) (b : Fin 32) (i j : Fin 64) :
    val_main_v13 (F := Ideal) x0 (ix3 b i j) = Cert.Spec.ratio (rows x0 b) i j := by
  rw [val_main_v13_apply, val_main_v12_apply, val_main_v10_apply, val_main_v8_apply, val_main_v11_apply, val_main_v9_apply]
  have e1 : idx_main_v8 (idx_main_v10 (ix3 b i j)) = ix2 b i := funext fun a => Fin.ext (by match a with | ⟨0, _⟩ => rfl | ⟨1, _⟩ => rfl)
  have e2 : idx_main_v9 (idx_main_v11 (ix3 b i j)) = ix2 b j := funext fun a => Fin.ext (by match a with | ⟨0, _⟩ => rfl | ⟨1, _⟩ => rfl)
  rw [e1, e2, v7_apply, v7_apply, v6_apply]
  rfl

/-- The mean-ratio array at (i, j). -/
theorem cr_apply (x0 : (⟨S32x64x128x128, .f32⟩ : BufTy).Contents (Elt Ideal)) (i j : Fin 64) :
    val_main_v16 (F := Ideal) x0 (ix2 i j) = Cert.Spec.meanRatio (rows x0) i j := by
  rw [val_main_v16_apply, val_main_v14_apply, val_main_cst_3_apply, val_main_v15_apply, val_main_cst_4_apply]
  simp only [Ideal.hostDivf_def, Ideal.ofBits_def]
  rw [Ideal.ofBits_zero_f32, zero_add]
  unfold Cert.Spec.meanRatio
  have hs : ∑ k : Fin 32, val_main_v13 (F := Ideal) x0 (idx_main_v14 (ix2 i j) k) = ∑ b : Fin 32, Cert.Spec.ratio (rows x0 b) i j :=
    Finset.sum_congr rfl fun b _ =>
      (congrArg (val_main_v13 (F := Ideal) x0) (funext fun a => Fin.ext (by match a with | ⟨0, _⟩ => rfl | ⟨1, _⟩ => rfl | ⟨2, _⟩ => rfl))).trans (v13_apply x0 b i j)
  rw [hs]

end Cert.ReferenceIdeal.RefValue

end
-- ==== Proof.KiTail.lean ====
/-
  The lines after the region, read once: whatever the buffers hold when they start, the result buffer ends at the
  weighted loss (the reference's own last stages, as one function) of the mean-ratio array they compute from the two
  per-core partial sums — the partial sums added from zero and divided by the constant 32.0 — and of the nodes. The
  node-type arithmetic is the same operations in both programs, so it is never opened here.
-/
import proofs.«115725_j78881369358863_2_alg».proof.Proof.KiShared
import proofs.«115725_j78881369358863_2_alg».proof.Proof.RefValue
import Idealize.ShloMosaic.Lib.StableHlo.Run

set_option maxRecDepth 16384

noncomputable section

namespace Cert.KernelIdeal.Tl

open Idealize.ShloMosaic Idealize.ShloMosaic.TcCoe Idealize.SL.Sem Idealize.ShloMosaic.StableHlo
open Cert.KernelIdeal Cert.KernelIdeal.Gen Cert.KernelIdeal.Frm

variable {F : FTy → Type} [FloatOps F]

/-- The mean-ratio array from the two per-core partial sums: their sum from zero, over the constant 32.0. -/
def crOf (P : (⟨S2x64x64, .f32⟩ : BufTy).Contents (Elt F)) : (⟨S64x64, .f32⟩ : BufTy).Contents (Elt F) :=
  Host.divf (Host.reduceAdd P (constant S_ .f32 0x00000000#32) reducesTo_S2x64x64_S64x64_d0 h_S_)
    (broadcastInDim S64x64 ![] bcast_S_S64x64 (constant S_ .f32 0x42000000#32))

set_option maxHeartbeats 40000000 in
/-- After the later lines, from any contents `W`: the result buffer holds the loss of `crOf` of the partial sums
    found in the region's output array, under the weights of the nodes found in the second argument. -/
theorem tail_result (W : Valuation τ sig (Elt F)) :
    StableHlo.after (tail (F := F)).flatten W (Proc.devRef .tc main_v65)
      = Cert.ReferenceIdeal.RefValue.tailOf (F := F) (crOf (W (Proc.devRef .tc main_v1))) (W (Proc.devRef .tc main_arg1)) := by
  simp only [tail, hostOps1, hostOps1_1, hostOps1_2, hostOps1_3, hostOps1_4, hostOps1_5, hostOps1_6, List.flatten_cons, List.flatten_nil, List.append_nil, List.cons_append, List.nil_append,
    StableHlo.TRef.nullary, StableHlo.TRef.unary, StableHlo.TRef.binary, StableHlo.TRef.ternary]
  after_results_simp
  rfl

end Cert.KernelIdeal.Tl

end
-- ==== Proof.Bridge.lean ====
/-
  The two programs' mean-ratio arrays are one array.

  The region's input array is the masks flattened, so input block t holds batch rows 2t and 2t + 1 and its two ratios are
  the specification's ratios of those rows. The output array holds, for each core q, the sixteen ratios of rows
  16q … 16q + 15 summed in eight steps of two from zero; the lines after the region add the two cores' sums from zero and
  divide by 32. That is the sum of all 32 rows' ratios over 32 — the reference's mean — because addition on the extended
  reals is commutative and associative with 0 neutral.
-/
import proofs.«115725_j78881369358863_2_alg».proof.Proof.KiValue
import proofs.«115725_j78881369358863_2_alg».proof.Proof.KiTail
import proofs.«115725_j78881369358863_2_alg».proof.Proof.RefValue
import proofs.«115725_j78881369358863_2_alg».proof.Proof.Spec

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.Val

variable (m : (ℓ : Loc nD τ sig) → Buf (Elt Ideal) ℓ) (ρ : Dev nD → PrngReg)

/-- The masks as launched on core `c`. -/
abbrev masks (c : Dev nD) : S32x64x128x128.Idx → EReal := m ((c : Thread nD τ).loc main_arg0)

/-- The region's input array is the reshape of the masks. -/
theorem V_main_v0 (c : Dev nD) :
    (V m c main_v0 : S32x64x16384.Idx → EReal) = shapeCast S32x64x16384 (masks m c) shapeCasts_S32x64x128x128_S32x64x16384 := by
  show StableHlo.after hostOps0 (fun b => m (c, b)) (Proc.devRef .tc main_v0) = _
  after_results
  rfl

/-- So at (b, n, k) it is the flattened masks' entry. -/
theorem V_rows (c : Dev nD) (b : Fin 32) (n : Fin 64) (k : Fin 16384) :
    (V m c main_v0 : S32x64x16384.Idx → EReal) (ix3 b n k) = Cert.ReferenceIdeal.RefValue.rows (masks m c) b n k := by
  rw [V_main_v0]
  unfold Cert.ReferenceIdeal.RefValue.rows
  exact shapeCast_apply _ shapeCasts_S32x64x128x128_S32x64x16384 (ix3 b n k) (Cert.ReferenceIdeal.Read.idx_main_v5 (ix3 b n k)) (by
    rw [Shape.rowMajor_val_four, Shape.rowMajor_val_three]
    have h0 : b.val < 32 := b.isLt
    have h1 : n.val < 64 := n.isLt
    have h2 : k.val < 16384 := k.isLt
    show ((((b.val * 64 + n.val) * 16384 + k.val) / 1048576 * 64 + ((b.val * 64 + n.val) * 16384 + k.val) / 16384 % 64) * 128 + ((b.val * 64 + n.val) * 16384 + k.val) / 128 % 128) * 128 + ((b.val * 64 + n.val) * 16384 + k.val) % 128 = (b.val * 64 + n.val) * 16384 + k.val
    omega)

/-- Input block t's ratio of its batch row b is the specification's ratio of row 2t + b of the flattened masks. -/
theorem ratio_blk (c : Dev nD) (t : Fin cfg0.N) (b : Fin 2) (i j : Fin 64) (hb : 2 * t.val + b.val < 32) :
    Pay.ratio (iblk m c 0 t : Vec Ideal S2x64x16384 .f32) b i j
      = Cert.Spec.ratio (Cert.ReferenceIdeal.RefValue.rows (masks m c) ⟨2 * t.val + b.val, hb⟩) i j := by
  have e : ∀ (n : Fin 64) (k : Fin 16384), (iblk m c 0 t : Vec Ideal S2x64x16384 .f32) (ix3 b n k)
      = Cert.ReferenceIdeal.RefValue.rows (masks m c) ⟨2 * t.val + b.val, hb⟩ n k :=
    fun n k => (iblk_apply m c t b n k hb).trans (V_rows m c _ n k)
  unfold Pay.ratio Pay.overlap Pay.mass Cert.Spec.ratio Cert.Spec.overlap Cert.Spec.mass
  simp only [e]
  rfl

/-- The ratio of row b at (i, j), for every natural b (zero past the 32 rows). -/
def R (c : Dev nD) (i j : Fin 64) (b : ℕ) : EReal :=
  if h : b < 32 then Cert.Spec.ratio (Cert.ReferenceIdeal.RefValue.rows (masks m c) ⟨b, h⟩) i j else 0

/-- What point n adds at (0, i, j): rows 2n and 2n + 1. -/
theorem stepAt_eq (c : Dev nD) (n : ℕ) (hn : n < 16) (i j : Fin 64) :
    stepAt m c n (ix3 (0 : Fin 1) i j) = ∑ b : Fin 2, R m c i j (2 * n + b.val) := by
  have hN : n < cfg0.N := lt_of_lt_of_eq hn (show (16 : ℕ) = cfg0.N from N_0.symm)
  unfold stepAt
  rw [dif_pos hN]
  refine Finset.sum_congr rfl fun b _ => ?_
  have hb : 2 * n + b.val < 32 := by have := b.isLt; omega
  unfold R
  rw [dif_pos hb]
  exact ratio_blk m c ⟨n, hN⟩ b i j hb

/-- The mean-ratio array from partial sums, at (i, j): their sum over the constant 32.0 (the zero start dropped). -/
theorem crOf_apply (P : S2x64x64.Idx → EReal) (i j : Fin 64) :
    Tl.crOf (F := Ideal) P (ix2 i j) = Ideal.div (∑ q : Fin 2, P (ix3 q i j)) (Ideal.ofBits .f32 0x42000000#32) := by
  unfold Tl.crOf
  show Ideal.div (Ideal.hostReduceAdd reducesTo_S2x64x64_S64x64_d0 P (Ideal.ofBits .f32 0x00000000#32) (ix2 i j)) (Ideal.ofBits .f32 0x42000000#32) = _
  rw [Ideal.hostReduceAdd_single reducesTo_S2x64x64_S64x64_d0 reduces_S2x64x64_S64x64, Ideal.ofBits_zero_f32, zero_add]
  refine congrArg (fun z => Ideal.div z (Ideal.ofBits .f32 0x42000000#32)) ?_
  show ∑ q : Fin 2, P (reduces_S2x64x64_S64x64.lift (ix2 i j) q) = _
  refine Finset.sum_congr rfl fun q _ => ?_
  exact congrArg P (funext fun a => Fin.ext (by match a with | ⟨0, _⟩ => rfl | ⟨1, _⟩ => rfl | ⟨2, _⟩ => rfl))

/-- The kernel's mean-ratio array is the reference's. -/
theorem cr_eq (c : Dev nD) :
    Tl.crOf (F := Ideal) (final m c) = Cert.ReferenceIdeal.Read.val_main_v16 (F := Ideal) (masks m c) := by
  funext y
  obtain ⟨i, j, rfl⟩ : ∃ (i j : Fin 64), y = ix2 i j := ⟨y 0, y 1, eq_ix2 y⟩
  rw [crOf_apply, Cert.ReferenceIdeal.RefValue.cr_apply]
  unfold Cert.Spec.meanRatio
  refine congrArg (fun z => Ideal.div z (Ideal.ofBits .f32 0x42000000#32)) ?_
  have hfin : ∀ q : Fin 2, final m c (ix3 q i j)
      = 0 + ∑ s ∈ Finset.range 8, ∑ b : Fin 2, R m c i j (2 * (8 * q.val + s) + b.val) := fun q => by
    show 0 + ∑ s ∈ Finset.range (7 + 1), stepAt m c (8 * q.val + s) (ix3 (0 : Fin 1) i j) = _
    refine congrArg (0 + ·) (Finset.sum_congr rfl fun s hs => ?_)
    have hs' : s < 8 := Finset.mem_range.mp hs
    have hq : q.val < 2 := q.isLt
    exact stepAt_eq m c (8 * q.val + s) (by omega) i j
  simp only [hfin]
  rw [Cert.Spec.regroup (R m c i j)]
  refine Finset.sum_congr rfl fun b _ => ?_
  unfold R
  rw [dif_pos b.isLt]

/-- The kernel's result, as the frame run's post states it (the later lines run from the region's exit contents): the
    loss of the reference's mean-ratio array of the masks, under the weights of the nodes as launched. -/
theorem kernel_result (c : Dev nD) :
    Pipeline.afterTail₀ cfgs (dats m) 0 (V0 m) tail c main_v65
      = Cert.ReferenceIdeal.RefValue.tailOf (F := Ideal)
          (Cert.ReferenceIdeal.Read.val_main_v16 (F := Ideal) (masks m c)) (m ((c : Thread nD τ).loc main_arg1)) := by
  have e1 : Pipeline.withArrays spec0 c (V0 m c) (fun w => (dats m 0 c).arrAt w cfg0.N) (Proc.devRef .tc main_v1)
      = final m c :=
    (Pipeline.withArrays_arr spec0 launch0.win.arr_inj c (V0 m c) (fun w => (dats m 0 c).arrAt w cfg0.N) 1).trans (final_eq m c)
  have e2 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by exact (by decide : ∀ w, Pipeline.arrRef spec0 w ≠ main_arg1))).trans (V_main_arg1 m c)
  unfold Pipeline.afterTail₀
  refine (Tl.tail_result (F := Ideal) _).trans ?_
  rw [e1, e2, cr_eq]

end Cert.KernelIdeal.Bridge

end
-- ==== Proof.lean ====
/-
  The kernel streams the masks two batch rows at a time on a 2 × 8 grid and keeps, per core, a running 64 × 64 sum of
  overlap(i, j) / min(mass(i), mass(j)) of the clipped masks m = max(0, (x + 1) · ½); the plain program around it adds the
  two cores' sums, divides by 32 and takes the weighted loss Σ |β − cr| · w / Σ w under node-type arrays β, w computed from
  the nodes. The reference clips as max(0, (x + 1) / 2), takes all 32 rows' ratios, means them and takes the same loss.

  Over the extended reals the two results are equal for every input: z / 2 = z · ½ at every extended real, the matrix
  unit's product into a zero accumulator and the host's contraction are one sum of products, every sum from a zero start
  is the plain sum, and 2 groups of 8 steps of 2 rows are the 32 rows because addition is commutative and associative
  with 0 neutral, also at the infinities. The loss is the same function of the mean-ratio array and the nodes in both
  programs, so it is never opened. No finiteness of the masks is needed.

  Each program runs to the end without a fault and leaves its arguments unchanged: the kernel's program by the launch
  theorem for "lines, region, lines" over the two control cases of its body (the accumulator reset at the points ≡ 0 mod 8,
  carried elsewhere), the reference by its straight-line run. The idealization rewrote nothing.
-/
import proofs.«115725_j78881369358863_2_alg».proof.Defs
import proofs.«115725_j78881369358863_2_alg».proof.Proof.Gen.Kernel
import proofs.«115725_j78881369358863_2_alg».proof.Proof.Gen.KernelIdeal
import proofs.«115725_j78881369358863_2_alg».proof.Proof.Gen.ReferenceIdeal
import proofs.«115725_j78881369358863_2_alg».proof.Proof.Gen.Pre_finite_inputs
import proofs.«115725_j78881369358863_2_alg».proof.Proof.KbFrame
import proofs.«115725_j78881369358863_2_alg».proof.Proof.KiFrame
import proofs.«115725_j78881369358863_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Frm.frame m ρ

/-- So does its reading over the extended reals. -/
theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end at the weighted loss of the same mean-ratio array under the same nodes. -/
theorem algebraic : Cert.algebraic_KernelIdeal_ReferenceIdeal := by
  intro m ρ m' ρ' _ hagree
  refine ⟨fun c => Cert.ReferenceIdeal.RefValue.tailOf (F := Ideal)
      (Cert.ReferenceIdeal.Read.val_main_v16 (F := Ideal) (Cert.KernelIdeal.Bridge.masks m c))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Frm.run_main (F := Ideal) m ρ)
    · exact ((h c).2 Cert.KernelIdeal.main_v65 (Pipeline.mem_restRefs_of Cert.KernelIdeal.main_v65 (by decide) (by decide))).trans
        (Cert.KernelIdeal.Bridge.kernel_result m c)
    · exact ((h c).2 Cert.KernelIdeal.main_arg0 (Pipeline.mem_restRefs_of Cert.KernelIdeal.main_arg0 (by decide) (by decide))).trans
        (Cert.KernelIdeal.Frm.W_main_arg0 m (Cert.KernelIdeal.Frm.dats m) c)
    · exact ((h c).2 Cert.KernelIdeal.main_arg1 (Pipeline.mem_restRefs_of Cert.KernelIdeal.main_arg1 (by decide) (by decide))).trans
        (Cert.KernelIdeal.Frm.W_main_arg1 m (Cert.KernelIdeal.Frm.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v77_eq, Cert.ReferenceIdeal.RefValue.result_eq_tail, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
